-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x784x864 : Shape := ⟨3, ![4, 784, 864]⟩
abbrev S1x864 : Shape := ⟨2, ![1, 864]⟩
abbrev S4x864x192 : Shape := ⟨3, ![4, 864, 192]⟩
abbrev S1x192 : Shape := ⟨2, ![1, 192]⟩
abbrev S192x120 : Shape := ⟨2, ![192, 120]⟩
abbrev S1x120 : Shape := ⟨2, ![1, 120]⟩
abbrev S120x60 : Shape := ⟨2, ![120, 60]⟩
abbrev S1x60 : Shape := ⟨2, ![1, 60]⟩
abbrev S60x128 : Shape := ⟨2, ![60, 128]⟩
abbrev S1x128 : Shape := ⟨2, ![1, 128]⟩
abbrev S8192x1x28x28 : Shape := ⟨4, ![8192, 1, 28, 28]⟩
abbrev S_ : Shape := ⟨0, ![]⟩

class Facts : Prop where
  bitsLt_bf16_f32 : FTy.bits .bf16 < FTy.bits .f32
  bcast_S_S4x784x864 : S_.BroadcastsInDim S4x784x864 (![] : Fin 0 → Fin S4x784x864.rank)
  reducesTo_S4x784x864_S_d0_1_2 : S4x784x864.ReducesTo [0, 1, 2] S_
  h_S_ : 0 < S_.numel
  bcast_S_S1x864 : S_.BroadcastsInDim S1x864 (![] : Fin 0 → Fin S1x864.rank)
  reducesTo_S1x864_S_d0_1 : S1x864.ReducesTo [0, 1] S_
  bcast_S_S4x864x192 : S_.BroadcastsInDim S4x864x192 (![] : Fin 0 → Fin S4x864x192.rank)
  reducesTo_S4x864x192_S_d0_1_2 : S4x864x192.ReducesTo [0, 1, 2] S_
  bcast_S_S1x192 : S_.BroadcastsInDim S1x192 (![] : Fin 0 → Fin S1x192.rank)
  reducesTo_S1x192_S_d0_1 : S1x192.ReducesTo [0, 1] S_
  bcast_S_S192x120 : S_.BroadcastsInDim S192x120 (![] : Fin 0 → Fin S192x120.rank)
  reducesTo_S192x120_S_d0_1 : S192x120.ReducesTo [0, 1] S_
  bcast_S_S1x120 : S_.BroadcastsInDim S1x120 (![] : Fin 0 → Fin S1x120.rank)
  reducesTo_S1x120_S_d0_1 : S1x120.ReducesTo [0, 1] S_
  bcast_S_S120x60 : S_.BroadcastsInDim S120x60 (![] : Fin 0 → Fin S120x60.rank)
  reducesTo_S120x60_S_d0_1 : S120x60.ReducesTo [0, 1] S_
  bcast_S_S1x60 : S_.BroadcastsInDim S1x60 (![] : Fin 0 → Fin S1x60.rank)
  reducesTo_S1x60_S_d0_1 : S1x60.ReducesTo [0, 1] S_
  bcast_S_S60x128 : S_.BroadcastsInDim S60x128 (![] : Fin 0 → Fin S60x128.rank)
  reducesTo_S60x128_S_d0_1 : S60x128.ReducesTo [0, 1] S_
  bcast_S_S1x128 : S_.BroadcastsInDim S1x128 (![] : Fin 0 → Fin S1x128.rank)
  reducesTo_S1x128_S_d0_1 : S1x128.ReducesTo [0, 1] S_
  bcast_S_S8192x1x28x28 : S_.BroadcastsInDim S8192x1x28x28 (![] : Fin 0 → Fin S8192x1x28x28.rank)
  reducesTo_S8192x1x28x28_S_d0_1_2_3 : S8192x1x28x28.ReducesTo [0, 1, 2, 3] S_

variable [Facts]

def fn_part3 {F : FTy → Type} [FloatOps F] (main_arg10 : FVec F S8192x1x28x28 .f32) (main_v48 : IVec S_ 1) (main_v51 : IVec S1x128 1) (main_c_17 : IVec S_ 1) : IVec S_ 1 :=
  let main_v52 : IVec S_ 1 := (fun x v => Host.reduce IntOp.andi x v reducesTo_S1x128_S_d0_1 h_S_) main_v51 main_c_17
  let main_v53 : IVec S_ 1 := andi main_v48 main_v52
  let main_v54 : FVec F S8192x1x28x28 .f32 := Host.absf main_arg10
  let main_cst_18 : FVec F S_ .f32 := constant S_ .f32 0x7F800000#32
  let main_v55 : FVec F S8192x1x28x28 .f32 := broadcastInDim S8192x1x28x28 ![] bcast_S_S8192x1x28x28 main_cst_18
  let main_v56 : IVec S8192x1x28x28 1 := cmpf .olt main_v54 main_v55
  let main_c_19 : IVec S_ 1 := constantI S_ 1 1#1
  let main_v57 : IVec S_ 1 := (fun x v => Host.reduce IntOp.andi x v reducesTo_S8192x1x28x28_S_d0_1_2_3 h_S_) main_v56 main_c_19
  let main_v58 : IVec S_ 1 := andi main_v53 main_v57
  main_v58

def fn_part2 {F : FTy → Type} [FloatOps F] (main_arg7 : FVec F S1x60 .f32) (main_arg8 : FVec F S60x128 .bf16) (main_arg9 : FVec F S1x128 .f32) (main_arg10 : FVec F S8192x1x28x28 .f32) (main_v31 : IVec S_ 1) (main_v33 : FVec F S120x60 .f32) (main_v34 : FVec F S120x60 .f32) : IVec S_ 1 :=
  let main_v35 : IVec S120x60 1 := cmpf .olt main_v33 main_v34
  let main_c_11 : IVec S_ 1 := constantI S_ 1 1#1
  let main_v36 : IVec S_ 1 := (fun x v => Host.reduce IntOp.andi x v reducesTo_S120x60_S_d0_1 h_S_) main_v35 main_c_11
  let main_v37 : IVec S_ 1 := andi main_v31 main_v36
  let main_v38 : FVec F S1x60 .f32 := Host.absf main_arg7
  let main_cst_12 : FVec F S_ .f32 := constant S_ .f32 0x7F800000#32
  let main_v39 : FVec F S1x60 .f32 := broadcastInDim S1x60 ![] bcast_S_S1x60 main_cst_12
  let main_v40 : IVec S1x60 1 := cmpf .olt main_v38 main_v39
  let main_c_13 : IVec S_ 1 := constantI S_ 1 1#1
  let main_v41 : IVec S_ 1 := (fun x v => Host.reduce IntOp.andi x v reducesTo_S1x60_S_d0_1 h_S_) main_v40 main_c_13
  let main_v42 : IVec S_ 1 := andi main_v37 main_v41
  let main_v43 : FVec F S60x128 .f32 := (extf .f32 · bitsLt_bf16_f32) main_arg8
  let main_v44 : FVec F S60x128 .f32 := Host.absf main_v43
  let main_cst_14 : FVec F S_ .f32 := constant S_ .f32 0x7F800000#32
  let main_v45 : FVec F S60x128 .f32 := broadcastInDim S60x128 ![] bcast_S_S60x128 main_cst_14
  let main_v46 : IVec S60x128 1 := cmpf .olt main_v44 main_v45
  let main_c_15 : IVec S_ 1 := constantI S_ 1 1#1
  let main_v47 : IVec S_ 1 := (fun x v => Host.reduce IntOp.andi x v reducesTo_S60x128_S_d0_1 h_S_) main_v46 main_c_15
  let main_v48 : IVec S_ 1 := andi main_v42 main_v47
  let main_v49 : FVec F S1x128 .f32 := Host.absf main_arg9
  let main_cst_16 : FVec F S_ .f32 := constant S_ .f32 0x7F800000#32
  let main_v50 : FVec F S1x128 .f32 := broadcastInDim S1x128 ![] bcast_S_S1x128 main_cst_16
  let main_v51 : IVec S1x128 1 := cmpf .olt main_v49 main_v50
  let main_c_17 : IVec S_ 1 := constantI S_ 1 1#1
  fn_part3 (F := F) main_arg10 main_v48 main_v51 main_c_17

def fn_part1 {F : FTy → Type} [FloatOps F] (main_arg4 : FVec F S192x120 .bf16) (main_arg5 : FVec F S1x120 .f32) (main_arg6 : FVec F S120x60 .bf16) (main_arg7 : FVec F S1x60 .f32) (main_arg8 : FVec F S60x128 .bf16) (main_arg9 : FVec F S1x128 .f32) (main_arg10 : FVec F S8192x1x28x28 .f32) (main_v15 : IVec S_ 1) (main_v16 : FVec F S1x192 .f32) (main_cst_4 : FVec F S_ .f32) : IVec S_ 1 :=
  let main_v17 : FVec F S1x192 .f32 := broadcastInDim S1x192 ![] bcast_S_S1x192 main_cst_4
  let main_v18 : IVec S1x192 1 := cmpf .olt main_v16 main_v17
  let main_c_5 : IVec S_ 1 := constantI S_ 1 1#1
  let main_v19 : IVec S_ 1 := (fun x v => Host.reduce IntOp.andi x v reducesTo_S1x192_S_d0_1 h_S_) main_v18 main_c_5
  let main_v20 : IVec S_ 1 := andi main_v15 main_v19
  let main_v21 : FVec F S192x120 .f32 := (extf .f32 · bitsLt_bf16_f32) main_arg4
  let main_v22 : FVec F S192x120 .f32 := Host.absf main_v21
  let main_cst_6 : FVec F S_ .f32 := constant S_ .f32 0x7F800000#32
  let main_v23 : FVec F S192x120 .f32 := broadcastInDim S192x120 ![] bcast_S_S192x120 main_cst_6
  let main_v24 : IVec S192x120 1 := cmpf .olt main_v22 main_v23
  let main_c_7 : IVec S_ 1 := constantI S_ 1 1#1
  let main_v25 : IVec S_ 1 := (fun x v => Host.reduce IntOp.andi x v reducesTo_S192x120_S_d0_1 h_S_) main_v24 main_c_7
  let main_v26 : IVec S_ 1 := andi main_v20 main_v25
  let main_v27 : FVec F S1x120 .f32 := Host.absf main_arg5
  let main_cst_8 : FVec F S_ .f32 := constant S_ .f32 0x7F800000#32
  let main_v28 : FVec F S1x120 .f32 := broadcastInDim S1x120 ![] bcast_S_S1x120 main_cst_8
  let main_v29 : IVec S1x120 1 := cmpf .olt main_v27 main_v28
  let main_c_9 : IVec S_ 1 := constantI S_ 1 1#1
  let main_v30 : IVec S_ 1 := (fun x v => Host.reduce IntOp.andi x v reducesTo_S1x120_S_d0_1 h_S_) main_v29 main_c_9
  let main_v31 : IVec S_ 1 := andi main_v26 main_v30
  let main_v32 : FVec F S120x60 .f32 := (extf .f32 · bitsLt_bf16_f32) main_arg6
  let main_v33 : FVec F S120x60 .f32 := Host.absf main_v32
  let main_cst_10 : FVec F S_ .f32 := constant S_ .f32 0x7F800000#32
  let main_v34 : FVec F S120x60 .f32 := broadcastInDim S120x60 ![] bcast_S_S120x60 main_cst_10
  fn_part2 (F := F) main_arg7 main_arg8 main_arg9 main_arg10 main_v31 main_v33 main_v34

def fn {F : FTy → Type} [FloatOps F] (main_arg0 : FVec F S4x784x864 .bf16) (main_arg1 : FVec F S1x864 .f32) (main_arg2 : FVec F S4x864x192 .bf16) (main_arg3 : FVec F S1x192 .f32) (main_arg4 : FVec F S192x120 .bf16) (main_arg5 : FVec F S1x120 .f32) (main_arg6 : FVec F S120x60 .bf16) (main_arg7 : FVec F S1x60 .f32) (main_arg8 : FVec F S60x128 .bf16) (main_arg9 : FVec F S1x128 .f32) (main_arg10 : FVec F S8192x1x28x28 .f32) : IVec S_ 1 :=
  let main_v0 : FVec F S4x784x864 .f32 := (extf .f32 · bitsLt_bf16_f32) main_arg0
  let main_v1 : FVec F S4x784x864 .f32 := Host.absf main_v0
  let main_cst : FVec F S_ .f32 := constant S_ .f32 0x7F800000#32
  let main_v2 : FVec F S4x784x864 .f32 := broadcastInDim S4x784x864 ![] bcast_S_S4x784x864 main_cst
  let main_v3 : IVec S4x784x864 1 := cmpf .olt main_v1 main_v2
  let main_c : IVec S_ 1 := constantI S_ 1 1#1
  let main_v4 : IVec S_ 1 := (fun x v => Host.reduce IntOp.andi x v reducesTo_S4x784x864_S_d0_1_2 h_S_) main_v3 main_c
  let main_v5 : FVec F S1x864 .f32 := Host.absf main_arg1
  let main_cst_0 : FVec F S_ .f32 := constant S_ .f32 0x7F800000#32
  let main_v6 : FVec F S1x864 .f32 := broadcastInDim S1x864 ![] bcast_S_S1x864 main_cst_0
  let main_v7 : IVec S1x864 1 := cmpf .olt main_v5 main_v6
  let main_c_1 : IVec S_ 1 := constantI S_ 1 1#1
  let main_v8 : IVec S_ 1 := (fun x v => Host.reduce IntOp.andi x v reducesTo_S1x864_S_d0_1 h_S_) main_v7 main_c_1
  let main_v9 : IVec S_ 1 := andi main_v4 main_v8
  let main_v10 : FVec F S4x864x192 .f32 := (extf .f32 · bitsLt_bf16_f32) main_arg2
  let main_v11 : FVec F S4x864x192 .f32 := Host.absf main_v10
  let main_cst_2 : FVec F S_ .f32 := constant S_ .f32 0x7F800000#32
  let main_v12 : FVec F S4x864x192 .f32 := broadcastInDim S4x864x192 ![] bcast_S_S4x864x192 main_cst_2
  let main_v13 : IVec S4x864x192 1 := cmpf .olt main_v11 main_v12
  let main_c_3 : IVec S_ 1 := constantI S_ 1 1#1
  let main_v14 : IVec S_ 1 := (fun x v => Host.reduce IntOp.andi x v reducesTo_S4x864x192_S_d0_1_2 h_S_) main_v13 main_c_3
  let main_v15 : IVec S_ 1 := andi main_v9 main_v14
  let main_v16 : FVec F S1x192 .f32 := Host.absf main_arg3
  let main_cst_4 : FVec F S_ .f32 := constant S_ .f32 0x7F800000#32
  fn_part1 (F := F) main_arg4 main_arg5 main_arg6 main_arg7 main_arg8 main_arg9 main_arg10 main_v15 main_v16 main_cst_4
-- ==== Kernel.lean ====
abbrev S4x784x864 : Shape := ⟨3, ![4, 784, 864]⟩
abbrev S1x864 : Shape := ⟨2, ![1, 864]⟩
abbrev S4x864x192 : Shape := ⟨3, ![4, 864, 192]⟩
abbrev S1x192 : Shape := ⟨2, ![1, 192]⟩
abbrev S192x120 : Shape := ⟨2, ![192, 120]⟩
abbrev S1x120 : Shape := ⟨2, ![1, 120]⟩
abbrev S120x60 : Shape := ⟨2, ![120, 60]⟩
abbrev S1x60 : Shape := ⟨2, ![1, 60]⟩
abbrev S60x128 : Shape := ⟨2, ![60, 128]⟩
abbrev S1x128 : Shape := ⟨2, ![1, 128]⟩
abbrev S8192x1x28x28 : Shape := ⟨4, ![8192, 1, 28, 28]⟩
abbrev S8192x784 : Shape := ⟨2, ![8192, 784]⟩
abbrev S8192x10 : Shape := ⟨2, ![8192, 10]⟩
abbrev S2048x784 : Shape := ⟨2, ![2048, 784]⟩
abbrev S2048x10 : Shape := ⟨2, ![2048, 10]⟩
abbrev S784x3584 : Shape := ⟨2, ![784, 3584]⟩
abbrev S864x1024 : Shape := ⟨2, ![864, 1024]⟩
abbrev S1x784x864 : Shape := ⟨3, ![1, 784, 864]⟩
abbrev S784x864 : Shape := ⟨2, ![784, 864]⟩
abbrev S1x864x192 : Shape := ⟨3, ![1, 864, 192]⟩
abbrev S864x192 : Shape := ⟨2, ![864, 192]⟩
abbrev S2048x3584 : Shape := ⟨2, ![2048, 3584]⟩
abbrev S2048x896 : Shape := ⟨2, ![2048, 896]⟩
abbrev S2048x864 : Shape := ⟨2, ![2048, 864]⟩
abbrev S2048x1024 : Shape := ⟨2, ![2048, 1024]⟩
abbrev S2048x256 : Shape := ⟨2, ![2048, 256]⟩
abbrev S2048x192 : Shape := ⟨2, ![2048, 192]⟩
abbrev S2048x120 : Shape := ⟨2, ![2048, 120]⟩
abbrev S2048x60 : Shape := ⟨2, ![2048, 60]⟩
abbrev S2048x128 : Shape := ⟨2, ![2048, 128]⟩

abbrev nBuf : Space → Nat
  | .hbm => 14
  | .vmem => 16
  | .smem => 0
  | _ => 0

abbrev bufTy : (tb : Table) → Fin (tcTables nBuf tb) → BufTy
  | .hbm, ⟨0, _⟩ => ⟨S4x784x864, .bf16⟩
  | .hbm, ⟨1, _⟩ => ⟨S1x864, .f32⟩
  | .hbm, ⟨2, _⟩ => ⟨S4x864x192, .bf16⟩
  | .hbm, ⟨3, _⟩ => ⟨S1x192, .f32⟩
  | .hbm, ⟨4, _⟩ => ⟨S192x120, .bf16⟩
  | .hbm, ⟨5, _⟩ => ⟨S1x120, .f32⟩
  | .hbm, ⟨6, _⟩ => ⟨S120x60, .bf16⟩
  | .hbm, ⟨7, _⟩ => ⟨S1x60, .f32⟩
  | .hbm, ⟨8, _⟩ => ⟨S60x128, .bf16⟩
  | .hbm, ⟨9, _⟩ => ⟨S1x128, .f32⟩
  | .hbm, ⟨10, _⟩ => ⟨S8192x1x28x28, .f32⟩
  | .hbm, ⟨11, _⟩ => ⟨S8192x784, .f32⟩
  | .hbm, ⟨12, _⟩ => ⟨S8192x784, .bf16⟩
  | .hbm, ⟨13, _⟩ => ⟨S8192x10, .f32⟩
  | .local _ .vmem, ⟨0, _⟩ => ⟨S2048x784, .bf16⟩
  | .local _ .vmem, ⟨1, _⟩ => ⟨S2048x784, .bf16⟩
  | .local _ .vmem, ⟨2, _⟩ => ⟨S4x784x864, .bf16⟩
  | .local _ .vmem, ⟨3, _⟩ => ⟨S1x864, .f32⟩
  | .local _ .vmem, ⟨4, _⟩ => ⟨S4x864x192, .bf16⟩
  | .local _ .vmem, ⟨5, _⟩ => ⟨S1x192, .f32⟩
  | .local _ .vmem, ⟨6, _⟩ => ⟨S192x120, .bf16⟩
  | .local _ .vmem, ⟨7, _⟩ => ⟨S1x120, .f32⟩
  | .local _ .vmem, ⟨8, _⟩ => ⟨S120x60, .bf16⟩
  | .local _ .vmem, ⟨9, _⟩ => ⟨S1x60, .f32⟩
  | .local _ .vmem, ⟨10, _⟩ => ⟨S60x128, .bf16⟩
  | .local _ .vmem, ⟨11, _⟩ => ⟨S1x128, .f32⟩
  | .local _ .vmem, ⟨12, _⟩ => ⟨S2048x10, .f32⟩
  | .local _ .vmem, ⟨13, _⟩ => ⟨S2048x10, .f32⟩
  | .local _ .vmem, ⟨14, _⟩ => ⟨S784x3584, .bf16⟩
  | .local _ .vmem, ⟨15, _⟩ => ⟨S864x1024, .bf16⟩
  | _, _ => ⟨S4x784x864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x784x864 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x864 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x864x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x60 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x60 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S60x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x1x28x28_S8192x784 : S8192x1x28x28.ShapeCasts S8192x784
  bitsLt_bf16_f32 : FTy.bits .bf16 < FTy.bits .f32
  inb_S4x784x864_S1x784x864_0_0_0 : ∀ a, (![0, 0, 0] : Fin 3 → Nat) a + S1x784x864.size a ≤ S4x784x864.size a
  h_S1x784x864 : 0 < S1x784x864.numel
  shapeCasts_S1x784x864_S784x864 : S1x784x864.ShapeCasts S784x864
  inb_S784x3584_S784x864_0_0 : ∀ a, (![0, 0] : Fin 2 → Nat) a + S784x864.size a ≤ S784x3584.size a
  h_S784x864 : 0 < S784x864.numel
  shapeCasts_S784x864_S784x864 : S784x864.ShapeCasts S784x864
  packedbf16_S784x3584_S784x864_0_0 : (Rect.unit (s := S784x3584) ![0, 0] S784x864.size inb_S784x3584_S784x864_0_0).PackedRows (EltTy.packing .bf16)
  inb_S4x864x192_S1x864x192_0_0_0 : ∀ a, (![0, 0, 0] : Fin 3 → Nat) a + S1x864x192.size a ≤ S4x864x192.size a
  h_S1x864x192 : 0 < S1x864x192.numel
  shapeCasts_S1x864x192_S864x192 : S1x864x192.ShapeCasts S864x192
  inb_S864x1024_S864x192_0_0 : ∀ a, (![0, 0] : Fin 2 → Nat) a + S864x192.size a ≤ S864x1024.size a
  h_S864x192 : 0 < S864x192.numel
  shapeCasts_S864x192_S864x192 : S864x192.ShapeCasts S864x192
  packedbf16_S864x1024_S864x192_0_0 : (Rect.unit (s := S864x1024) ![0, 0] S864x192.size inb_S864x1024_S864x192_0_0).PackedRows (EltTy.packing .bf16)
  inb_S4x784x864_S1x784x864_1_0_0 : ∀ a, (![1, 0, 0] : Fin 3 → Nat) a + S1x784x864.size a ≤ S4x784x864.size a
  inb_S784x3584_S784x864_0_896 : ∀ a, (![0, 896] : Fin 2 → Nat) a + S784x864.size a ≤ S784x3584.size a
  packedbf16_S784x3584_S784x864_0_896 : (Rect.unit (s := S784x3584) ![0, 896] S784x864.size inb_S784x3584_S784x864_0_896).PackedRows (EltTy.packing .bf16)
  inb_S4x864x192_S1x864x192_1_0_0 : ∀ a, (![1, 0, 0] : Fin 3 → Nat) a + S1x864x192.size a ≤ S4x864x192.size a
  inb_S864x1024_S864x192_0_256 : ∀ a, (![0, 256] : Fin 2 → Nat) a + S864x192.size a ≤ S864x1024.size a
  packedbf16_S864x1024_S864x192_0_256 : (Rect.unit (s := S864x1024) ![0, 256] S864x192.size inb_S864x1024_S864x192_0_256).PackedRows (EltTy.packing .bf16)
  inb_S4x784x864_S1x784x864_2_0_0 : ∀ a, (![2, 0, 0] : Fin 3 → Nat) a + S1x784x864.size a ≤ S4x784x864.size a
  inb_S784x3584_S784x864_0_1792 : ∀ a, (![0, 1792] : Fin 2 → Nat) a + S784x864.size a ≤ S784x3584.size a
  packedbf16_S784x3584_S784x864_0_1792 : (Rect.unit (s := S784x3584) ![0, 1792] S784x864.size inb_S784x3584_S784x864_0_1792).PackedRows (EltTy.packing .bf16)
  inb_S4x864x192_S1x864x192_2_0_0 : ∀ a, (![2, 0, 0] : Fin 3 → Nat) a + S1x864x192.size a ≤ S4x864x192.size a
  inb_S864x1024_S864x192_0_512 : ∀ a, (![0, 512] : Fin 2 → Nat) a + S864x192.size a ≤ S864x1024.size a
  packedbf16_S864x1024_S864x192_0_512 : (Rect.unit (s := S864x1024) ![0, 512] S864x192.size inb_S864x1024_S864x192_0_512).PackedRows (EltTy.packing .bf16)
  inb_S4x784x864_S1x784x864_3_0_0 : ∀ a, (![3, 0, 0] : Fin 3 → Nat) a + S1x784x864.size a ≤ S4x784x864.size a
  inb_S784x3584_S784x864_0_2688 : ∀ a, (![0, 2688] : Fin 2 → Nat) a + S784x864.size a ≤ S784x3584.size a
  packedbf16_S784x3584_S784x864_0_2688 : (Rect.unit (s := S784x3584) ![0, 2688] S784x864.size inb_S784x3584_S784x864_0_2688).PackedRows (EltTy.packing .bf16)
  inb_S4x864x192_S1x864x192_3_0_0 : ∀ a, (![3, 0, 0] : Fin 3 → Nat) a + S1x864x192.size a ≤ S4x864x192.size a
  inb_S864x1024_S864x192_0_768 : ∀ a, (![0, 768] : Fin 2 → Nat) a + S864x192.size a ≤ S864x1024.size a
  packedbf16_S864x1024_S864x192_0_768 : (Rect.unit (s := S864x1024) ![0, 768] S864x192.size inb_S864x1024_S864x192_0_768).PackedRows (EltTy.packing .bf16)
  inb_S2048x784_S2048x784_0_0 : ∀ a, (![0, 0] : Fin 2 → Nat) a + S2048x784.size a ≤ S2048x784.size a
  h_S2048x784 : 0 < S2048x784.numel
  shapeCasts_S2048x784_S2048x784 : S2048x784.ShapeCasts S2048x784
  inb_S784x3584_S784x3584_0_0 : ∀ a, (![0, 0] : Fin 2 → Nat) a + S784x3584.size a ≤ S784x3584.size a
  h_S784x3584 : 0 < S784x3584.numel
  slices_S2048x3584_o0_0_S2048x896 : S2048x3584.Slices ![0, 0] S2048x896
  slices_S2048x3584_o0_896_S2048x896 : S2048x3584.Slices ![0, 896] S2048x896
  slices_S2048x3584_o0_1792_S2048x896 : S2048x3584.Slices ![0, 1792] S2048x896
  slices_S2048x3584_o0_2688_S2048x896 : S2048x3584.Slices ![0, 2688] S2048x896
  slices_S2048x896_o0_0_S2048x864 : S2048x896.Slices ![0, 0] S2048x864
  inb_S1x864_S1x864_0_0 : ∀ a, (![0, 0] : Fin 2 → Nat) a + S1x864.size a ≤ S1x864.size a
  h_S1x864 : 0 < S1x864.numel
  broadcasts_S1x864_S2048x864 : S1x864.Broadcasts S2048x864
  inb_S864x1024_S864x1024_0_0 : ∀ a, (![0, 0] : Fin 2 → Nat) a + S864x1024.size a ≤ S864x1024.size a
  h_S864x1024 : 0 < S864x1024.numel
  slices_S2048x1024_o0_0_S2048x256 : S2048x1024.Slices ![0, 0] S2048x256
  slices_S2048x1024_o0_256_S2048x256 : S2048x1024.Slices ![0, 256] S2048x256
  slices_S2048x1024_o0_512_S2048x256 : S2048x1024.Slices ![0, 512] S2048x256
  slices_S2048x1024_o0_768_S2048x256 : S2048x1024.Slices ![0, 768] S2048x256
  slices_S2048x256_o0_0_S2048x192 : S2048x256.Slices ![0, 0] S2048x192
  inb_S1x192_S1x192_0_0 : ∀ a, (![0, 0] : Fin 2 → Nat) a + S1x192.size a ≤ S1x192.size a
  h_S1x192 : 0 < S1x192.numel
  broadcasts_S1x192_S2048x192 : S1x192.Broadcasts S2048x192
  inb_S192x120_S192x120_0_0 : ∀ a, (![0, 0] : Fin 2 → Nat) a + S192x120.size a ≤ S192x120.size a
  h_S192x120 : 0 < S192x120.numel
  inb_S1x120_S1x120_0_0 : ∀ a, (![0, 0] : Fin 2 → Nat) a + S1x120.size a ≤ S1x120.size a
  h_S1x120 : 0 < S1x120.numel
  broadcasts_S1x120_S2048x120 : S1x120.Broadcasts S2048x120
  inb_S120x60_S120x60_0_0 : ∀ a, (![0, 0] : Fin 2 → Nat) a + S120x60.size a ≤ S120x60.size a
  h_S120x60 : 0 < S120x60.numel
  inb_S1x60_S1x60_0_0 : ∀ a, (![0, 0] : Fin 2 → Nat) a + S1x60.size a ≤ S1x60.size a
  h_S1x60 : 0 < S1x60.numel
  broadcasts_S1x60_S2048x60 : S1x60.Broadcasts S2048x60
  inb_S60x128_S60x128_0_0 : ∀ a, (![0, 0] : Fin 2 → Nat) a + S60x128.size a ≤ S60x128.size a
  h_S60x128 : 0 < S60x128.numel
  inb_S1x128_S1x128_0_0 : ∀ a, (![0, 0] : Fin 2 → Nat) a + S1x128.size a ≤ S1x128.size a
  h_S1x128 : 0 < S1x128.numel
  broadcasts_S1x128_S2048x128 : S1x128.Broadcasts S2048x128
  slices_S2048x128_o0_0_S2048x10 : S2048x128.Slices ![0, 0] S2048x10
  inb_S2048x10_S2048x10_0_0 : ∀ a, (![0, 0] : Fin 2 → Nat) a + S2048x10.size a ≤ S2048x10.size a
  h_S2048x10 : 0 < S2048x10.numel
  dot_S2048x784_S784x3584_S2048x3584_1_0_0_1_n_n_wf : DotDims.WF S2048x784 S784x3584 S2048x3584 [1] [0] [0] [1] [] []
  dot_S2048x864_S864x1024_S2048x1024_1_0_0_1_n_n_wf : DotDims.WF S2048x864 S864x1024 S2048x1024 [1] [0] [0] [1] [] []
  dot_S2048x192_S192x120_S2048x120_1_0_0_1_n_n_wf : DotDims.WF S2048x192 S192x120 S2048x120 [1] [0] [0] [1] [] []
  dot_S2048x120_S120x60_S2048x60_1_0_0_1_n_n_wf : DotDims.WF S2048x120 S120x60 S2048x60 [1] [0] [0] [1] [] []
  dot_S2048x60_S60x128_S2048x128_1_0_0_1_n_n_wf : DotDims.WF S2048x60 S60x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S8192x784.size a
  hwx0_0 : ∀ i : grid0.Coords, EltTy.bits .bf16 = 32 ∨ (Rect.block (s := S8192x784) S2048x784.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x784x864.size a ≤ S4x784x864.size a
  hwx0_1 : ∀ i : grid0.Coords, EltTy.bits .bf16 = 32 ∨ (Rect.block (s := S4x784x864) S4x784x864.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x864.size a ≤ S1x864.size a
  hwx0_2 : ∀ i : grid0.Coords, EltTy.bits .f32 = 32 ∨ (Rect.block (s := S1x864) S1x864.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x864x192.size a ≤ S4x864x192.size a
  hwx0_3 : ∀ i : grid0.Coords, EltTy.bits .bf16 = 32 ∨ (Rect.block (s := S4x864x192) S4x864x192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x192.size a ≤ S1x192.size a
  hwx0_4 : ∀ i : grid0.Coords, EltTy.bits .f32 = 32 ∨ (Rect.block (s := S1x192) S1x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x120.size a ≤ S192x120.size a
  hwx0_5 : ∀ i : grid0.Coords, EltTy.bits .bf16 = 32 ∨ (Rect.block (s := S192x120) S192x120.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x60.size a ≤ S120x60.size a
  hwx0_7 : ∀ i : grid0.Coords, EltTy.bits .bf16 = 32 ∨ (Rect.block (s := S120x60) S120x60.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x60.size a ≤ S1x60.size a
  hwx0_8 : ∀ i : grid0.Coords, EltTy.bits .f32 = 32 ∨ (Rect.block (s := S1x60) S1x60.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S60x128.size a ≤ S60x128.size a
  hwx0_9 : ∀ i : grid0.Coords, EltTy.bits .bf16 = 32 ∨ (Rect.block (s := S60x128) S60x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x10.size a ≤ S8192x10.size a
  hwx0_11 : ∀ i : grid0.Coords, EltTy.bits .f32 = 32 ∨ (Rect.block (s := S8192x10) S2048x10.size (cc0_transform_11 i) (hinb0_11 i)).WholeWords (EltTy.packing .f32)

variable [Facts₀]

def dot_S2048x784_S784x3584_S2048x3584_1_0_0_1_n_n : DotDims S2048x784 S784x3584 S2048x3584 where
  lhsContracting := [1]
  rhsContracting := [0]
  lhsNonContracting := [0]
  rhsNonContracting := [1]
  lhsBatch := []
  rhsBatch := []
  wf := dot_S2048x784_S784x3584_S2048x3584_1_0_0_1_n_n_wf
def dot_S2048x864_S864x1024_S2048x1024_1_0_0_1_n_n : DotDims S2048x864 S864x1024 S2048x1024 where
  lhsContracting := [1]
  rhsContracting := [0]
  lhsNonContracting := [0]
  rhsNonContracting := [1]
  lhsBatch := []
  rhsBatch := []
  wf := dot_S2048x864_S864x1024_S2048x1024_1_0_0_1_n_n_wf
def dot_S2048x192_S192x120_S2048x120_1_0_0_1_n_n : DotDims S2048x192 S192x120 S2048x120 where
  lhsContracting := [1]
  rhsContracting := [0]
  lhsNonContracting := [0]
  rhsNonContracting := [1]
  lhsBatch := []
  rhsBatch := []
  wf := dot_S2048x192_S192x120_S2048x120_1_0_0_1_n_n_wf
def dot_S2048x120_S120x60_S2048x60_1_0_0_1_n_n : DotDims S2048x120 S120x60 S2048x60 where
  lhsContracting := [1]
  rhsContracting := [0]
  lhsNonContracting := [0]
  rhsNonContracting := [1]
  lhsBatch := []
  rhsBatch := []
  wf := dot_S2048x120_S120x60_S2048x60_1_0_0_1_n_n_wf
def dot_S2048x60_S60x128_S2048x128_1_0_0_1_n_n : DotDims S2048x60 S60x128 S2048x128 where
  lhsContracting := [1]
  rhsContracting := [0]
  lhsNonContracting := [0]
  rhsNonContracting := [1]
  lhsBatch := []
  rhsBatch := []
  wf := dot_S2048x60_S60x128_S2048x128_1_0_0_1_n_n_wf

abbrev win0_0 : Pipeline.Window sig grid0 :=
  Pipeline.Window.ofSpec (Memref.whole main_v1) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x784x864.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x864.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4x864x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S192x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S120x60.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x60.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S60x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S2048x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4x784x864 : Shape := ⟨3, ![4, 784, 864]⟩
abbrev S1x864 : Shape := ⟨2, ![1, 864]⟩
abbrev S4x864x192 : Shape := ⟨3, ![4, 864, 192]⟩
abbrev S1x192 : Shape := ⟨2, ![1, 192]⟩
abbrev S192x120 : Shape := ⟨2, ![192, 120]⟩
abbrev S1x120 : Shape := ⟨2, ![1, 120]⟩
abbrev S120x60 : Shape := ⟨2, ![120, 60]⟩
abbrev S1x60 : Shape := ⟨2, ![1, 60]⟩
abbrev S60x128 : Shape := ⟨2, ![60, 128]⟩
abbrev S1x128 : Shape := ⟨2, ![1, 128]⟩
abbrev S8192x1x28x28 : Shape := ⟨4, ![8192, 1, 28, 28]⟩
abbrev S8192x784 : Shape := ⟨2, ![8192, 784]⟩
abbrev S8192x128 : Shape := ⟨2, ![8192, 128]⟩
abbrev S128x784 : Shape := ⟨2, ![128, 784]⟩
abbrev S128x128 : Shape := ⟨2, ![128, 128]⟩
abbrev S1x784x864 : Shape := ⟨3, ![1, 784, 864]⟩
abbrev S784x864 : Shape := ⟨2, ![784, 864]⟩
abbrev S128x864 : Shape := ⟨2, ![128, 864]⟩
abbrev S1x864x192 : Shape := ⟨3, ![1, 864, 192]⟩
abbrev S864x192 : Shape := ⟨2, ![864, 192]⟩
abbrev S128x192 : Shape := ⟨2, ![128, 192]⟩
abbrev S128x120 : Shape := ⟨2, ![128, 120]⟩
abbrev S128x60 : Shape := ⟨2, ![128, 60]⟩
abbrev S8192x10 : Shape := ⟨2, ![8192, 10]⟩

abbrev nBuf : Space → Nat
  | .hbm => 15
  | .vmem => 14
  | .smem => 0
  | _ => 0

abbrev bufTy : (tb : Table) → Fin (tcTables nBuf tb) → BufTy
  | .hbm, ⟨0, _⟩ => ⟨S4x784x864, .bf16⟩
  | .hbm, ⟨1, _⟩ => ⟨S1x864, .f32⟩
  | .hbm, ⟨2, _⟩ => ⟨S4x864x192, .bf16⟩
  | .hbm, ⟨3, _⟩ => ⟨S1x192, .f32⟩
  | .hbm, ⟨4, _⟩ => ⟨S192x120, .bf16⟩
  | .hbm, ⟨5, _⟩ => ⟨S1x120, .f32⟩
  | .hbm, ⟨6, _⟩ => ⟨S120x60, .bf16⟩
  | .hbm, ⟨7, _⟩ => ⟨S1x60, .f32⟩
  | .hbm, ⟨8, _⟩ => ⟨S60x128, .bf16⟩
  | .hbm, ⟨9, _⟩ => ⟨S1x128, .f32⟩
  | .hbm, ⟨10, _⟩ => ⟨S8192x1x28x28, .f32⟩
  | .hbm, ⟨11, _⟩ => ⟨S8192x784, .f32⟩
  | .hbm, ⟨12, _⟩ => ⟨S8192x784, .bf16⟩
  | .hbm, ⟨13, _⟩ => ⟨S8192x128, .f32⟩
  | .hbm, ⟨14, _⟩ => ⟨S8192x10, .f32⟩
  | .local _ .vmem, ⟨0, _⟩ => ⟨S128x784, .bf16⟩
  | .local _ .vmem, ⟨1, _⟩ => ⟨S128x784, .bf16⟩
  | .local _ .vmem, ⟨2, _⟩ => ⟨S4x784x864, .bf16⟩
  | .local _ .vmem, ⟨3, _⟩ => ⟨S1x864, .f32⟩
  | .local _ .vmem, ⟨4, _⟩ => ⟨S4x864x192, .bf16⟩
  | .local _ .vmem, ⟨5, _⟩ => ⟨S1x192, .f32⟩
  | .local _ .vmem, ⟨6, _⟩ => ⟨S192x120, .bf16⟩
  | .local _ .vmem, ⟨7, _⟩ => ⟨S1x120, .f32⟩
  | .local _ .vmem, ⟨8, _⟩ => ⟨S120x60, .bf16⟩
  | .local _ .vmem, ⟨9, _⟩ => ⟨S1x60, .f32⟩
  | .local _ .vmem, ⟨10, _⟩ => ⟨S60x128, .bf16⟩
  | .local _ .vmem, ⟨11, _⟩ => ⟨S1x128, .f32⟩
  | .local _ .vmem, ⟨12, _⟩ => ⟨S128x128, .f32⟩
  | .local _ .vmem, ⟨13, _⟩ => ⟨S128x128, .f32⟩
  | _, _ => ⟨S4x784x864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x784 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x784x864 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x864 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x864x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x60 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x60 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S60x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x1x28x28_S8192x784 : S8192x1x28x28.ShapeCasts S8192x784
  bitsLt_bf16_f32 : FTy.bits .bf16 < FTy.bits .f32
  inb_S128x784_S128x784_0_0 : ∀ a, (![0, 0] : Fin 2 → Nat) a + S128x784.size a ≤ S128x784.size a
  h_S128x784 : 0 < S128x784.numel
  shapeCasts_S128x784_S128x784 : S128x784.ShapeCasts S128x784
  inb_S4x784x864_S1x784x864_0_0_0 : ∀ a, (![0, 0, 0] : Fin 3 → Nat) a + S1x784x864.size a ≤ S4x784x864.size a
  h_S1x784x864 : 0 < S1x784x864.numel
  shapeCasts_S1x784x864_S784x864 : S1x784x864.ShapeCasts S784x864
  inb_S4x784x864_S1x784x864_1_0_0 : ∀ a, (![1, 0, 0] : Fin 3 → Nat) a + S1x784x864.size a ≤ S4x784x864.size a
  inb_S4x784x864_S1x784x864_2_0_0 : ∀ a, (![2, 0, 0] : Fin 3 → Nat) a + S1x784x864.size a ≤ S4x784x864.size a
  inb_S4x784x864_S1x784x864_3_0_0 : ∀ a, (![3, 0, 0] : Fin 3 → Nat) a + S1x784x864.size a ≤ S4x784x864.size a
  inb_S1x864_S1x864_0_0 : ∀ a, (![0, 0] : Fin 2 → Nat) a + S1x864.size a ≤ S1x864.size a
  h_S1x864 : 0 < S1x864.numel
  broadcasts_S1x864_S128x864 : S1x864.Broadcasts S128x864
  inb_S4x864x192_S1x864x192_0_0_0 : ∀ a, (![0, 0, 0] : Fin 3 → Nat) a + S1x864x192.size a ≤ S4x864x192.size a
  h_S1x864x192 : 0 < S1x864x192.numel
  shapeCasts_S1x864x192_S864x192 : S1x864x192.ShapeCasts S864x192
  inb_S4x864x192_S1x864x192_1_0_0 : ∀ a, (![1, 0, 0] : Fin 3 → Nat) a + S1x864x192.size a ≤ S4x864x192.size a
  inb_S4x864x192_S1x864x192_2_0_0 : ∀ a, (![2, 0, 0] : Fin 3 → Nat) a + S1x864x192.size a ≤ S4x864x192.size a
  inb_S4x864x192_S1x864x192_3_0_0 : ∀ a, (![3, 0, 0] : Fin 3 → Nat) a + S1x864x192.size a ≤ S4x864x192.size a
  inb_S1x192_S1x192_0_0 : ∀ a, (![0, 0] : Fin 2 → Nat) a + S1x192.size a ≤ S1x192.size a
  h_S1x192 : 0 < S1x192.numel
  broadcasts_S1x192_S128x192 : S1x192.Broadcasts S128x192
  inb_S192x120_S192x120_0_0 : ∀ a, (![0, 0] : Fin 2 → Nat) a + S192x120.size a ≤ S192x120.size a
  h_S192x120 : 0 < S192x120.numel
  inb_S1x120_S1x120_0_0 : ∀ a, (![0, 0] : Fin 2 → Nat) a + S1x120.size a ≤ S1x120.size a
  h_S1x120 : 0 < S1x120.numel
  broadcasts_S1x120_S128x120 : S1x120.Broadcasts S128x120
  inb_S120x60_S120x60_0_0 : ∀ a, (![0, 0] : Fin 2 → Nat) a + S120x60.size a ≤ S120x60.size a
  h_S120x60 : 0 < S120x60.numel
  inb_S1x60_S1x60_0_0 : ∀ a, (![0, 0] : Fin 2 → Nat) a + S1x60.size a ≤ S1x60.size a
  h_S1x60 : 0 < S1x60.numel
  broadcasts_S1x60_S128x60 : S1x60.Broadcasts S128x60
  inb_S60x128_S60x128_0_0 : ∀ a, (![0, 0] : Fin 2 → Nat) a + S60x128.size a ≤ S60x128.size a
  h_S60x128 : 0 < S60x128.numel
  inb_S1x128_S1x128_0_0 : ∀ a, (![0, 0] : Fin 2 → Nat) a + S1x128.size a ≤ S1x128.size a
  h_S1x128 : 0 < S1x128.numel
  broadcasts_S1x128_S128x128 : S1x128.Broadcasts S128x128
  inb_S128x128_S128x128_0_0 : ∀ a, (![0, 0] : Fin 2 → Nat) a + S128x128.size a ≤ S128x128.size a
  h_S128x128 : 0 < S128x128.numel
  slices_S8192x128_S8192x10_0_0 : S8192x128.Slices ![0, 0] S8192x10
  dot_S128x784_S784x864_S128x864_1_0_0_1_n_n_wf : DotDims.WF S128x784 S784x864 S128x864 [1] [0] [0] [1] [] []
  dot_S128x864_S864x192_S128x192_1_0_0_1_n_n_wf : DotDims.WF S128x864 S864x192 S128x192 [1] [0] [0] [1] [] []
  dot_S128x192_S192x120_S128x120_1_0_0_1_n_n_wf : DotDims.WF S128x192 S192x120 S128x120 [1] [0] [0] [1] [] []
  dot_S128x120_S120x60_S128x60_1_0_0_1_n_n_wf : DotDims.WF S128x120 S120x60 S128x60 [1] [0] [0] [1] [] []
  dot_S128x60_S60x128_S128x128_1_0_0_1_n_n_wf : DotDims.WF S128x60 S60x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x784.size a ≤ S8192x784.size a
  hwx0_0 : ∀ i : grid0.Coords, EltTy.bits .bf16 = 32 ∨ (Rect.block (s := S8192x784) S128x784.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x784x864.size a ≤ S4x784x864.size a
  hwx0_1 : ∀ i : grid0.Coords, EltTy.bits .bf16 = 32 ∨ (Rect.block (s := S4x784x864) S4x784x864.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x864.size a ≤ S1x864.size a
  hwx0_2 : ∀ i : grid0.Coords, EltTy.bits .f32 = 32 ∨ (Rect.block (s := S1x864) S1x864.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x864x192.size a ≤ S4x864x192.size a
  hwx0_3 : ∀ i : grid0.Coords, EltTy.bits .bf16 = 32 ∨ (Rect.block (s := S4x864x192) S4x864x192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x192.size a ≤ S1x192.size a
  hwx0_4 : ∀ i : grid0.Coords, EltTy.bits .f32 = 32 ∨ (Rect.block (s := S1x192) S1x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x120.size a ≤ S192x120.size a
  hwx0_5 : ∀ i : grid0.Coords, EltTy.bits .bf16 = 32 ∨ (Rect.block (s := S192x120) S192x120.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x60.size a ≤ S120x60.size a
  hwx0_7 : ∀ i : grid0.Coords, EltTy.bits .bf16 = 32 ∨ (Rect.block (s := S120x60) S120x60.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x60.size a ≤ S1x60.size a
  hwx0_8 : ∀ i : grid0.Coords, EltTy.bits .f32 = 32 ∨ (Rect.block (s := S1x60) S1x60.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S60x128.size a ≤ S60x128.size a
  hwx0_9 : ∀ i : grid0.Coords, EltTy.bits .bf16 = 32 ∨ (Rect.block (s := S60x128) S60x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S8192x128.size a
  hwx0_11 : ∀ i : grid0.Coords, EltTy.bits .f32 = 32 ∨ (Rect.block (s := S8192x128) S128x128.size (cc0_transform_11 i) (hinb0_11 i)).WholeWords (EltTy.packing .f32)

variable [Facts₀]

def dot_S128x784_S784x864_S128x864_1_0_0_1_n_n : DotDims S128x784 S784x864 S128x864 where
  lhsContracting := [1]
  rhsContracting := [0]
  lhsNonContracting := [0]
  rhsNonContracting := [1]
  lhsBatch := []
  rhsBatch := []
  wf := dot_S128x784_S784x864_S128x864_1_0_0_1_n_n_wf
def dot_S128x864_S864x192_S128x192_1_0_0_1_n_n : DotDims S128x864 S864x192 S128x192 where
  lhsContracting := [1]
  rhsContracting := [0]
  lhsNonContracting := [0]
  rhsNonContracting := [1]
  lhsBatch := []
  rhsBatch := []
  wf := dot_S128x864_S864x192_S128x192_1_0_0_1_n_n_wf
def dot_S128x192_S192x120_S128x120_1_0_0_1_n_n : DotDims S128x192 S192x120 S128x120 where
  lhsContracting := [1]
  rhsContracting := [0]
  lhsNonContracting := [0]
  rhsNonContracting := [1]
  lhsBatch := []
  rhsBatch := []
  wf := dot_S128x192_S192x120_S128x120_1_0_0_1_n_n_wf
def dot_S128x120_S120x60_S128x60_1_0_0_1_n_n : DotDims S128x120 S120x60 S128x60 where
  lhsContracting := [1]
  rhsContracting := [0]
  lhsNonContracting := [0]
  rhsNonContracting := [1]
  lhsBatch := []
  rhsBatch := []
  wf := dot_S128x120_S120x60_S128x60_1_0_0_1_n_n_wf
def dot_S128x60_S60x128_S128x128_1_0_0_1_n_n : DotDims S128x60 S60x128 S128x128 where
  lhsContracting := [1]
  rhsContracting := [0]
  lhsNonContracting := [0]
  rhsNonContracting := [1]
  lhsBatch := []
  rhsBatch := []
  wf := dot_S128x60_S60x128_S128x128_1_0_0_1_n_n_wf

abbrev win0_0 : Pipeline.Window sig grid0 :=
  Pipeline.Window.ofSpec (Memref.whole main_v1) S128x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x784x864.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x864.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4x864x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S192x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S120x60.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x60.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S60x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.KFrameBase.lean ====
/- The frame of the word-level program: what the two cases of the body's run share.

   The body branches once, on whether the point's grid coordinate is 0: at the first point it copies the four
   slabs of the two stacked weight arrays side by side into two scratch buffers, at padded column offsets, and at
   every point it reads both scratch buffers whole. The padding columns are never stored, so what the output block
   holds after a point depends on what the scratch held before the launch, which nothing states. A frame claim
   does not need it: the argument arrays are only read. So the run below hands the output block and the two
   scratch buffers to the body at SOME contents and takes them back at SOME contents, and keeps every input
   buffer at the contents it had. -/
import proofs.«152690_g2000104654252751_pallasbulk_1105_35_alg».proof.Proof.Gen.Kernel.Frame
import proofs.«152690_g2000104654252751_pallasbulk_1105_35_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition, as the printed chain of scalar operations on the grid coordinate. -/
abbrev condA (i : grid0.Coords) : Prop :=
  (Scalar.cmpi .ne (Scalar.extui (Scalar.cmpi .eq (BitVec.ofNat 32 (i 0).val) 0#32)) 0#32) = 1#1

/-- The branch is taken at the first of the four points and at no other: decided over the grid. -/
theorem hcond : ∀ t : Fin cfg0.N, condA (grid0.coords t) ↔ t.val % 4 = 0 :=
  (by decide +kernel : ∀ t : Fin grid0.N, condA (grid0.coords t) ↔ t.val % 4 = 0)

/-- The two scratch buffers, as the whole-buffer memrefs the body is called with. -/
abbrev scM0 : Memref sig .tc .vmem S784x3584 .bf16 := Memref.whole cc0_scratch0
abbrev scM1 : Memref sig .tc .vmem S864x1024 .bf16 := Memref.whole cc0_scratch1

/-- The region's invariant spelled out: each scratch buffer owned whole at some contents, and the generator
    register at some state. -/
theorem PhiA_eq (c : Dev nD) :
    (Pipeline.ΦA spec0 c : sProp 𝕄)
      = iprop(((∃ d, owns (c : Thread nD τ) scM0 fullShare d) ∗ (∃ d, owns (c : Thread nD τ) scM1 fullShare d)) ∗ ∃ r, prngReg c r) := by
  unfold Pipeline.ΦA; rw [scopedRest0_eq]; simp only [scM0, scM1, owns_whole]; try rfl

/-- Everything the body touches, as it receives it and as it returns it: the eleven input buffers at given
    contents, the output block and the two scratch buffers each at some contents. -/
def held (c : Dev nD) (arg1 : Memref sig .tc .vmem S2048x784 .bf16) (arg2 : Memref sig .tc .vmem S4x784x864 .bf16) (arg3 : Memref sig .tc .vmem S1x864 .f32) (arg4 : Memref sig .tc .vmem S4x864x192 .bf16) (arg5 : Memref sig .tc .vmem S1x192 .f32) (arg6 : Memref sig .tc .vmem S192x120 .bf16) (arg7 : Memref sig .tc .vmem S1x120 .f32) (arg8 : Memref sig .tc .vmem S120x60 .bf16) (arg9 : Memref sig .tc .vmem S1x60 .f32) (arg10 : Memref sig .tc .vmem S60x128 .bf16) (arg11 : Memref sig .tc .vmem S1x128 .f32) (arg12 : Memref sig .tc .vmem S2048x10 .f32) (arg13 : Memref sig .tc .vmem S784x3584 .bf16) (arg14 : Memref sig .tc .vmem S864x1024 .bf16)
    (x0 : Vec F S2048x784 .bf16) (x1 : Vec F S4x784x864 .bf16) (x2 : Vec F S1x864 .f32) (x3 : Vec F S4x864x192 .bf16) (x4 : Vec F S1x192 .f32) (x5 : Vec F S192x120 .bf16) (x6 : Vec F S1x120 .f32) (x7 : Vec F S120x60 .bf16) (x8 : Vec F S1x60 .f32) (x9 : Vec F S60x128 .bf16) (x10 : Vec F S1x128 .f32) : sProp 𝕄 :=
  iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ (∃ d, owns (c : Thread nD τ) arg12 fullShare d)
      ∗ (∃ d, owns (c : Thread nD τ) arg13 fullShare d)
      ∗ (∃ d, owns (c : Thread nD τ) arg14 fullShare d))

/-- The body's triple at grid coordinates `i`, on any whole memrefs: from `held` it runs, without a fault, to
    `held` again — the inputs at the same contents. -/
def BodyRuns (c : Dev nD) (i : grid0.Coords) : Prop :=
  ∀ (arg1 : Memref sig .tc .vmem S2048x784 .bf16) (harg1 : arg1.IsWhole) (arg2 : Memref sig .tc .vmem S4x784x864 .bf16) (harg2 : arg2.IsWhole) (arg3 : Memref sig .tc .vmem S1x864 .f32) (harg3 : arg3.IsWhole) (arg4 : Memref sig .tc .vmem S4x864x192 .bf16) (harg4 : arg4.IsWhole) (arg5 : Memref sig .tc .vmem S1x192 .f32) (harg5 : arg5.IsWhole) (arg6 : Memref sig .tc .vmem S192x120 .bf16) (harg6 : arg6.IsWhole) (arg7 : Memref sig .tc .vmem S1x120 .f32) (harg7 : arg7.IsWhole) (arg8 : Memref sig .tc .vmem S120x60 .bf16) (harg8 : arg8.IsWhole) (arg9 : Memref sig .tc .vmem S1x60 .f32) (harg9 : arg9.IsWhole) (arg10 : Memref sig .tc .vmem S60x128 .bf16) (harg10 : arg10.IsWhole) (arg11 : Memref sig .tc .vmem S1x128 .f32) (harg11 : arg11.IsWhole) (arg12 : Memref sig .tc .vmem S2048x10 .f32) (harg12 : arg12.IsWhole) (arg13 : Memref sig .tc .vmem S784x3584 .bf16) (harg13 : arg13.IsWhole) (arg14 : Memref sig .tc .vmem S864x1024 .bf16) (harg14 : arg14.IsWhole)
    (x0 : Vec F S2048x784 .bf16) (x1 : Vec F S4x784x864 .bf16) (x2 : Vec F S1x864 .f32) (x3 : Vec F S4x864x192 .bf16) (x4 : Vec F S1x192 .f32) (x5 : Vec F S192x120 .bf16) (x6 : Vec F S1x120 .f32) (x7 : Vec F S120x60 .bf16) (x8 : Vec F S1x60 .f32) (x9 : Vec F S60x128 .bf16) (x10 : Vec F S1x128 .f32) (E : Set ℕ) (K : PUnit → sProp 𝕄),
    iprop(held c arg1 arg2 arg3 arg4 arg5 arg6 arg7 arg8 arg9 arg10 arg11 arg12 arg13 arg14 x0 x1 x2 x3 x4 x5 x6 x7 x8 x9 x10 ∗ (held c arg1 arg2 arg3 arg4 arg5 arg6 arg7 arg8 arg9 arg10 arg11 arg12 arg13 arg14 x0 x1 x2 x3 x4 x5 x6 x7 x8 x9 x10 -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K

end Cert.Kernel.Hand

end
-- ==== Proof.KFrameRunA.lean ====
/- The body's run at the first grid point, where the branch is taken: the four slabs of each stacked weight
   array are copied into the scratch buffers (eight stores, each into a column range of a scratch buffer), then
   the five layers are computed from whole-buffer loads and the result is stored over the whole output block.
   Every load is of a buffer that is held, every store is into the output block or a scratch buffer, so the
   inputs come back at the contents they had; what the output block and the scratch buffers end with is not
   named. -/
import proofs.«152690_g2000104654252751_pallasbulk_1105_35_alg».proof.Proof.KFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where the branch condition holds the body runs from `held` to `held`. -/
theorem runs_first (c : Dev nD) (i : grid0.Coords) (hc0 : condA i) : BodyRuns (F := F) c i := by
  intro arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 E K
  unfold held
  simp only [cc0__fused_kernel_eq_skeleton]; unfold cc0__fused_kernel_skel
  simp only [k0_part2_eq_skeleton, k0_part1_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel.Hand

end
-- ==== Proof.KFrameRunB.lean ====
/- The body's run at a grid point other than the first, where the branch is not taken: nothing is copied, the
   five layers are computed from whole-buffer loads — the scratch buffers at whatever they hold — and the result
   is stored over the whole output block. The inputs come back at the contents they had; what the output block
   ends with is not named, and the scratch buffers are not written at all. -/
import proofs.«152690_g2000104654252751_pallasbulk_1105_35_alg».proof.Proof.KFrameRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Where the branch condition fails the body runs from `held` to `held`. -/
theorem runs_later (c : Dev nD) (i : grid0.Coords) (hc0 : ¬condA i) : BodyRuns (F := F) c i := by
  intro arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 E K
  unfold held
  simp only [cc0__fused_kernel_eq_skeleton]; unfold cc0__fused_kernel_skel
  simp only [k0_part2_eq_skeleton, k0_part1_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel.Hand

end
-- ==== Proof.KFrame.lean ====
/- The frame of the word-level program: every weakly fair execution terminates without a fault and leaves the
   argument arrays as they were.

   The launch stages eleven input windows and one output window around the body, on a grid of four points. The
   proof data names what each input's staging buffer holds at every point — the window's block of its array, read
   off the array as the region finds it — and names nothing for the output window: the launch theorem is the one
   for proof data read as a RELATION between what the body is handed and what it leaves, with the output window's
   relation saying nothing. Its conclusion still pins every input array to its contents at the region's entry (an
   input window is never written back), and every buffer the region bypasses likewise; the host lines before the
   region write neither, so each argument array ends as launched. -/
import proofs.«152690_g2000104654252751_pallasbulk_1105_35_alg».proof.Proof.KFrameRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The windows whose contents after the body are not named: the output window alone. -/
def forgets : Fin 12 → Bool := fun w => w.val == 11

/-- The proof data on core `c`: the arrays as the region finds them; after the body at a point every input's
    staging buffer still at its block (the body only loads from it); the output's at contents left unnamed; the
    invariant the scratch buffers and the generator register at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Dat.unnamed (cfg := cfg0) ⟨11, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in each input window: its block. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]

/-- So each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-! ## The body obligation, at a generic point -/

/-- What the body is called with at point `t`: the invariant, nothing owed, each input's buffer at its block, the
    output's buffer at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ X, owns (c : Thread nD τ) (st0_11 t) fullShare X))

/-- What it returns: the same, each input's buffer at what the proof data says the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, owns (c : Thread nD τ) (st0_11 t) fullShare X))

set_option maxHeartbeats 1000000 in
/-- The body at any point. The closed form of the branch condition says which of the two runs applies; either
    takes the inputs' buffers at their blocks, the output's buffer and — out of the invariant — the two scratch
    buffers at anything, and returns the inputs' buffers unchanged and the other three at anything, which is the
    invariant and the windows again. -/
theorem sound_body (c : Dev nD) (t : Fin cfg0.N) :
    bodyPre m c t ⊢ wp frame (wpE (defs₀ (F := F)) Variants.none c none) Set.univ (bodyAt0 t) (fun _ => bodyPost m c t) := by
  have run : BodyRuns (F := F) c (grid0.coords t) := by
    by_cases h : t.val % 4 = 0
    · exact runs_first c _ ((hcond t).mpr h)
    · exact runs_later c _ (fun hc => h ((hcond t).mp hc))
  unfold BodyRuns held at run
  unfold bodyPre bodyPost bodyAt0
  simp only [before_0, before_1, before_2, before_3, before_4, before_5, before_6, before_7, before_8, before_9, before_10, after_0, after_1, after_2, after_3, after_4, after_5, after_6, after_7, after_8, after_9, after_10]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  iapply (run (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) scM0 (Memref.isWhole_whole _) scM1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0 H1 H2 H3 H4 H5 H6 H7 H8 H9 H10 H11 HS0 HS1]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    iexact HS1
  iintro ⟨H0, H1, H2, H3, H4, H5, H6, H7, H8, H9, H10, H11, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, the output window forgotten. -/
theorem body_obligation (c : Dev nD) :
    BodyObligation (dats (F := F) m 0 c) (defs₀ (F := F)) Variants.none () Set.univ forgets := fun t => by
  rw [bigSep_W0, bigSep_W0]
  exact sound_body m c t

/-! ## The run and the frame -/

set_option backward.isDefEq.respectTransparency.types false in
/-- From any memory with zero counters every weakly fair execution of @main terminates, and in every final
    state each window's array holds contents the relational data allows after every write-back, and every
    buffer the region bypasses what it held at the region's entry. -/
theorem run_main : θ_run defs (onTc (τ := τ) (main (F := F))) (s₀ m ρ)
    (Pipeline.RDat.FramePost cfg0 (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- An input window is never written back, so the contents its array may end with are its entry contents. -/
theorem inputKept (c : Dev nD) (r : PUnit × MemSt nD τ sig (Elt F))
    (h : Pipeline.RDat.FramePost cfg0 (fun c => (dats m 0 c).toRForget forgets) (V m) r)
    (w : Fin cfg0.W) (hin : (cfg0.win w).isOut = false) :
    r.2.mem ((cfg0.spec w).arr.view.loc (c.tc : Thread nD τ)) = (dats m 0 c).A w :=
  (congrFun (((dats m 0 c).toRForget forgets).ArrAt_in w hin cfg0.N) _).mp ((h c).1 w)

/-- THE FRAME: the argument arrays end as launched. Windows 1 to 10 stage the first ten arguments; the eleventh
    is no window's array (a host line reshapes and rounds it into window 0's array before the region) and is among
    the buffers the region bypasses. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
      (inputKept m c r h 1 rfl).trans ((A_eq m c 1).trans (V_main_arg0 m c)),
      (inputKept m c r h 2 rfl).trans ((A_eq m c 2).trans (V_main_arg1 m c)),
      (inputKept m c r h 3 rfl).trans ((A_eq m c 3).trans (V_main_arg2 m c)),
      (inputKept m c r h 4 rfl).trans ((A_eq m c 4).trans (V_main_arg3 m c)),
      (inputKept m c r h 5 rfl).trans ((A_eq m c 5).trans (V_main_arg4 m c)),
      (inputKept m c r h 6 rfl).trans ((A_eq m c 6).trans (V_main_arg5 m c)),
      (inputKept m c r h 7 rfl).trans ((A_eq m c 7).trans (V_main_arg6 m c)),
      (inputKept m c r h 8 rfl).trans ((A_eq m c 8).trans (V_main_arg7 m c)),
      (inputKept m c r h 9 rfl).trans ((A_eq m c 9).trans (V_main_arg8 m c)),
      (inputKept m c r h 10 rfl).trans ((A_eq m c 10).trans (V_main_arg9 m c)),
      ((h c).2 main_arg10 (Pipeline.mem_restRefs_of main_arg10 (by decide) (by decide))).trans (V_main_arg10 m c)⟩) (run_main m ρ)

end Cert.Kernel.Hand

end
-- ==== Proof.KIBase.lean ====
/-
  What the two cases of the body share. The body branches once, on "this is the grid's first point"; over the grid of
  four points that condition holds exactly at point 0. The two scratch operands are whole buffers of the kernel's own,
  and the region's invariant is those two buffers at some contents together with the generator register at some state.
-/
import proofs.«152690_g2000104654252751_pallasbulk_1105_35_alg».proof.Proof.Gen.KernelIdeal.Frame
import proofs.«152690_g2000104654252751_pallasbulk_1105_35_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition: the first grid coordinate is zero. -/
abbrev condA (i : grid0.Coords) : Prop :=
  (Scalar.cmpi .ne (Scalar.extui (Scalar.cmpi .eq (BitVec.ofNat 32 (i 0).val) 0#32)) 0#32) = 1#1

/-- Over the grid the condition holds exactly at the first point. -/
theorem hcond : ∀ t : Fin cfg0.N, condA (grid0.coords t) ↔ t.val % 4 = 0 :=
  (by decide +kernel : ∀ t : Fin grid0.N, condA (grid0.coords t) ↔ t.val % 4 = 0)

/-- The two scratch operands: the concatenated weights of the first and of the second pooled stage. -/
abbrev scM0 : Memref sig .tc .vmem S784x3584 .bf16 := Memref.whole cc0_scratch0
abbrev scM1 : Memref sig .tc .vmem S864x1024 .bf16 := Memref.whole cc0_scratch1

/-- The region's invariant: each scratch buffer at some contents, the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Each window's staging memref at a point, as the pipeline passes it to the body. -/
abbrev ms0 (t : Fin cfg0.N) : Memref sig .tc .vmem S2048x784 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x784x864 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x864 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x864x192 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x192 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S192x120 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x120 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S120x60 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x60 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S60x128 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S2048x10 .f32 := win0_11.stage (cfg0.slots t 11)
abbrev hs11 (t : Fin cfg0.N) : (ms11 t).IsWhole := hstage0_11 ((cfg0.slots t 11).cast nbuf0_11)

end Cert.KernelIdeal.Hand

end
-- ==== Proof.KIRunA.lean ====
/-
  The body at the grid's first point. There it first copies the four weight matrices of each pooled stage side by side
  into the two scratch buffers — matrix k of the first stage into lanes [896 k, 896 k + 864), of the second into lanes
  [256 k, 256 k + 192) — leaving the lanes between the groups as it found them, and then computes the output block from
  the scratch buffers so filled. What the scratch buffers end with is what they held overwritten by those eight stores;
  what the output buffer ends with is the one store that covers it.
-/
import proofs.«152690_g2000104654252751_pallasbulk_1105_35_alg».proof.Proof.Gen.KernelIdeal.Frame
import proofs.«152690_g2000104654252751_pallasbulk_1105_35_alg».proof.Proof.Gen.KernelIdeal.Skeleton
import proofs.«152690_g2000104654252751_pallasbulk_1105_35_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores the body makes at the first point — into the output buffer (one, covering it) and into each scratch
    buffer (four each), newest first — with the proof that, from whole memrefs holding the inputs at their contents, the
    output buffer at anything and the scratch buffers at `s0`, `s1`, the body runs to the inputs as they were, the output
    buffer with its store written and each scratch buffer at `s0` / `s1` overwritten by its stores. -/
noncomputable def runA (c : Dev nD) (i : grid0.Coords) (arg1 : Memref sig .tc .vmem S2048x784 .bf16) (harg1 : arg1.IsWhole) (arg2 : Memref sig .tc .vmem S4x784x864 .bf16) (harg2 : arg2.IsWhole) (arg3 : Memref sig .tc .vmem S1x864 .f32) (harg3 : arg3.IsWhole) (arg4 : Memref sig .tc .vmem S4x864x192 .bf16) (harg4 : arg4.IsWhole) (arg5 : Memref sig .tc .vmem S1x192 .f32) (harg5 : arg5.IsWhole) (arg6 : Memref sig .tc .vmem S192x120 .bf16) (harg6 : arg6.IsWhole) (arg7 : Memref sig .tc .vmem S1x120 .f32) (harg7 : arg7.IsWhole) (arg8 : Memref sig .tc .vmem S120x60 .bf16) (harg8 : arg8.IsWhole) (arg9 : Memref sig .tc .vmem S1x60 .f32) (harg9 : arg9.IsWhole) (arg10 : Memref sig .tc .vmem S60x128 .bf16) (harg10 : arg10.IsWhole) (arg11 : Memref sig .tc .vmem S1x128 .f32) (harg11 : arg11.IsWhole) (arg12 : Memref sig .tc .vmem S2048x10 .f32) (harg12 : arg12.IsWhole) (arg13 : Memref sig .tc .vmem S784x3584 .bf16) (harg13 : arg13.IsWhole) (arg14 : Memref sig .tc .vmem S864x1024 .bf16) (harg14 : arg14.IsWhole) (hc0 : condA i)
    (x0 : Vec F S2048x784 .bf16) (x1 : Vec F S4x784x864 .bf16) (x2 : Vec F S1x864 .f32) (x3 : Vec F S4x864x192 .bf16) (x4 : Vec F S1x192 .f32) (x5 : Vec F S192x120 .bf16) (x6 : Vec F S1x120 .f32) (x7 : Vec F S120x60 .bf16) (x8 : Vec F S1x60 .f32) (x9 : Vec F S60x128 .bf16) (x10 : Vec F S1x128 .f32) (s0 : Vec F S784x3584 .bf16) (s1 : Vec F S864x1024 .bf16) :
    Σ' (L11 : List (View.Piece (Elt F) S2048x10 .f32)) (LS0 : List (View.Piece (Elt F) S784x3584 .bf16)), { LS1 : List (View.Piece (Elt F) S864x1024 .bf16) //
      ∀ (d11 : Vec F S2048x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare d11 ∗ owns (c : Thread nD τ) arg13 fullShare s0 ∗ owns (c : Thread nD τ) arg14 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
                ∗ (∃ f, arg12.view.loc (c : Thread nD τ) ↦[arg12.view.set]{fullShare} arg12.view.writes (Elt F) f L11)
                ∗ (arg13.view.loc (c : Thread nD τ) ↦[arg13.view.set]{fullShare} arg13.view.writes (Elt F) (harg13.unread s0) LS0)
                ∗ (arg14.view.loc (c : Thread nD τ) ↦[arg14.view.set]{fullShare} arg14.view.writes (Elt F) (harg14.unread s1) LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun d11 E K => ?run⟩
  case run =>
    simp only [cc0__fused_kernel_eq_skeleton]; unfold cc0__fused_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    obtain rfl := harg12.eq_unread hf11; obtain rfl := harg13.eq_unread hfs0; obtain rfl := harg14.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; iexact H11
    isplitl [HS0]
    · iexact HS0
    iexact HS1

end Cert.KernelIdeal.Hand

end
-- ==== Proof.KIRunB.lean ====
/-
  The body at every later grid point. It stores nothing into the scratch buffers: it computes the output block from
  what they hold and covers the output buffer with one store.
-/
import proofs.«152690_g2000104654252751_pallasbulk_1105_35_alg».proof.Proof.Gen.KernelIdeal.Frame
import proofs.«152690_g2000104654252751_pallasbulk_1105_35_alg».proof.Proof.Gen.KernelIdeal.Skeleton
import proofs.«152690_g2000104654252751_pallasbulk_1105_35_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The one store the body makes into the output buffer at a later point, with the proof that, from whole memrefs holding
    the inputs at their contents, the output buffer at anything and the scratch buffers at `s0`, `s1`, the body runs to
    the inputs and the scratch buffers as they were and the output buffer with that store written. -/
noncomputable def runB (c : Dev nD) (i : grid0.Coords) (arg1 : Memref sig .tc .vmem S2048x784 .bf16) (harg1 : arg1.IsWhole) (arg2 : Memref sig .tc .vmem S4x784x864 .bf16) (harg2 : arg2.IsWhole) (arg3 : Memref sig .tc .vmem S1x864 .f32) (harg3 : arg3.IsWhole) (arg4 : Memref sig .tc .vmem S4x864x192 .bf16) (harg4 : arg4.IsWhole) (arg5 : Memref sig .tc .vmem S1x192 .f32) (harg5 : arg5.IsWhole) (arg6 : Memref sig .tc .vmem S192x120 .bf16) (harg6 : arg6.IsWhole) (arg7 : Memref sig .tc .vmem S1x120 .f32) (harg7 : arg7.IsWhole) (arg8 : Memref sig .tc .vmem S120x60 .bf16) (harg8 : arg8.IsWhole) (arg9 : Memref sig .tc .vmem S1x60 .f32) (harg9 : arg9.IsWhole) (arg10 : Memref sig .tc .vmem S60x128 .bf16) (harg10 : arg10.IsWhole) (arg11 : Memref sig .tc .vmem S1x128 .f32) (harg11 : arg11.IsWhole) (arg12 : Memref sig .tc .vmem S2048x10 .f32) (harg12 : arg12.IsWhole) (arg13 : Memref sig .tc .vmem S784x3584 .bf16) (harg13 : arg13.IsWhole) (arg14 : Memref sig .tc .vmem S864x1024 .bf16) (harg14 : arg14.IsWhole) (hc0 : ¬condA i)
    (x0 : Vec F S2048x784 .bf16) (x1 : Vec F S4x784x864 .bf16) (x2 : Vec F S1x864 .f32) (x3 : Vec F S4x864x192 .bf16) (x4 : Vec F S1x192 .f32) (x5 : Vec F S192x120 .bf16) (x6 : Vec F S1x120 .f32) (x7 : Vec F S120x60 .bf16) (x8 : Vec F S1x60 .f32) (x9 : Vec F S60x128 .bf16) (x10 : Vec F S1x128 .f32) (s0 : Vec F S784x3584 .bf16) (s1 : Vec F S864x1024 .bf16) :
    { L11 : List (View.Piece (Elt F) S2048x10 .f32) //
      ∀ (d11 : Vec F S2048x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare d11 ∗ owns (c : Thread nD τ) arg13 fullShare s0 ∗ owns (c : Thread nD τ) arg14 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
                ∗ (∃ f, arg12.view.loc (c : Thread nD τ) ↦[arg12.view.set]{fullShare} arg12.view.writes (Elt F) f L11)
                ∗ owns (c : Thread nD τ) arg13 fullShare s0 ∗ owns (c : Thread nD τ) arg14 fullShare s1) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun d11 E K => ?run⟩
  case run =>
    simp only [cc0__fused_kernel_eq_skeleton]; unfold cc0__fused_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    obtain rfl := harg12.eq_unread hf11; obtain rfl := harg13.eq_unread hfs0; obtain rfl := harg14.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; iexact H11
    isplitl [HS0]
    · iexists _; isplitr; · ipureintro; exact harg13.read_unread _
      iexact HS0
    iexists _; isplitr; · ipureintro; exact harg14.read_unread _
    iexact HS1

end Cert.KernelIdeal.Hand

end
-- ==== Proof.Spec.lean ====
/-
  The network both programs compute, as one function on the extended reals.

  A row x of 784 pixels goes through two pooled convolution stages and three dense layers. A pooled stage with four
  weight matrices A 0 … A 3 (one per offset of the 2×2 pooling window) sends x to
      j ↦ max (max_k (∑ p, x p · A k p j) + b j) 0,
  the maximum over the four offsets taken left to right; a dense layer sends x to j ↦ (∑ p, x p · W p j) + b j, followed
  (for the first two) by max · 0. The result keeps the first 10 of the last layer's 128 columns. The zero of the
  rectifiers is kept as the float pattern the programs print, so that it is never evaluated.
-/
import Idealize.ShloMosaic.Lib.ValueIdx
import Idealize.ShloMosaic.Lib.Pipeline.Value
import Idealize.ShloMosaic.PureOps.Ideal

noncomputable section

namespace LeNetSpec

open Idealize.ShloMosaic Idealize.ShloMosaic.ValueIdx

/-- The rectifiers' zero, as the programs print it. -/
abbrev z : EReal := (Scalar.ofBits (F := Ideal) .f32 0x00000000#32 : Ideal .f32)

/-- A pooled convolution stage: the maximum over the four pooling offsets of the row's product with that offset's
    matrix, plus the bias, rectified. -/
def pooled {K N : Nat} (A : Fin 4 → Fin K → Fin N → EReal) (b : Fin N → EReal) (x : Fin K → EReal) (j : Fin N) : EReal :=
  max (max (max (max (∑ p, x p * A 0 p j) (∑ p, x p * A 1 p j)) (∑ p, x p * A 2 p j)) (∑ p, x p * A 3 p j) + b j) z

/-- A dense layer: the row's product with the weights, plus the bias. -/
def dense {K N : Nat} (W : Fin K → Fin N → EReal) (b : Fin N → EReal) (x : Fin K → EReal) (j : Fin N) : EReal :=
  (∑ p, x p * W p j) + b j

/-- The whole network on one row: two pooled stages, two rectified dense layers, one dense layer. -/
def net (A1 : Fin 4 → Fin 784 → Fin 864 → EReal) (b1 : Fin 864 → EReal)
    (A2 : Fin 4 → Fin 864 → Fin 192 → EReal) (b2 : Fin 192 → EReal)
    (W3 : Fin 192 → Fin 120 → EReal) (b3 : Fin 120 → EReal)
    (W4 : Fin 120 → Fin 60 → EReal) (b4 : Fin 60 → EReal)
    (W5 : Fin 60 → Fin 128 → EReal) (b5 : Fin 128 → EReal) (x : Fin 784 → EReal) : Fin 128 → EReal :=
  dense W5 b5 (fun q => max (dense W4 b4 (fun p => max (dense W3 b3 (pooled A2 b2 (pooled A1 b1 x)) p) z) q) z)

/-- The network's parameters read off the argument arrays, applied to a row. -/
def netOf (a1 : FVec Ideal ⟨3, ![4, 784, 864]⟩ .bf16) (b1 : FVec Ideal ⟨2, ![1, 864]⟩ .f32)
    (a2 : FVec Ideal ⟨3, ![4, 864, 192]⟩ .bf16) (b2 : FVec Ideal ⟨2, ![1, 192]⟩ .f32)
    (w3 : FVec Ideal ⟨2, ![192, 120]⟩ .bf16) (b3 : FVec Ideal ⟨2, ![1, 120]⟩ .f32)
    (w4 : FVec Ideal ⟨2, ![120, 60]⟩ .bf16) (b4 : FVec Ideal ⟨2, ![1, 60]⟩ .f32)
    (w5 : FVec Ideal ⟨2, ![60, 128]⟩ .bf16) (b5 : FVec Ideal ⟨2, ![1, 128]⟩ .f32) (x : Fin 784 → EReal) : Fin 128 → EReal :=
  net (fun k p j => a1 (ix3 k p j)) (fun j => b1 (ix2 0 j)) (fun k p j => a2 (ix3 k p j)) (fun j => b2 (ix2 0 j))
    (fun p j => w3 (ix2 p j)) (fun j => b3 (ix2 0 j)) (fun p j => w4 (ix2 p j)) (fun j => b4 (ix2 0 j))
    (fun p j => w5 (ix2 p j)) (fun j => b5 (ix2 0 j)) x

/-- The result array: row r, column j < 10 is the network's column j on row r of the flattened images. -/
def G (a1 : FVec Ideal ⟨3, ![4, 784, 864]⟩ .bf16) (b1 : FVec Ideal ⟨2, ![1, 864]⟩ .f32)
    (a2 : FVec Ideal ⟨3, ![4, 864, 192]⟩ .bf16) (b2 : FVec Ideal ⟨2, ![1, 192]⟩ .f32)
    (w3 : FVec Ideal ⟨2, ![192, 120]⟩ .bf16) (b3 : FVec Ideal ⟨2, ![1, 120]⟩ .f32)
    (w4 : FVec Ideal ⟨2, ![120, 60]⟩ .bf16) (b4 : FVec Ideal ⟨2, ![1, 60]⟩ .f32)
    (w5 : FVec Ideal ⟨2, ![60, 128]⟩ .bf16) (b5 : FVec Ideal ⟨2, ![1, 128]⟩ .f32)
    (xf : FVec Ideal ⟨2, ![8192, 784]⟩ .bf16) : FVec Ideal ⟨2, ![8192, 10]⟩ .f32 :=
  fun i => netOf a1 b1 a2 b2 w3 b3 w4 b4 w5 b5 (fun p => xf (ix2 (i 0) p)) (Fin.castLE (by decide) (i 1))

/-- The images flattened to rows of 784 pixels: the row-major recast of [8192, 1, 28, 28] as [8192, 784]. A change of
    float format is the identity on the extended reals, so this is also the recast array converted to another format. -/
def xflat (x : FVec Ideal ⟨4, ![8192, 1, 28, 28]⟩ .f32) (h : (⟨4, ![8192, 1, 28, 28]⟩ : Shape).ShapeCasts ⟨2, ![8192, 784]⟩) :
    FVec Ideal ⟨2, ![8192, 784]⟩ .bf16 :=
  shapeCast ⟨2, ![8192, 784]⟩ x h

end LeNetSpec

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.KIDots.lean ====
/-
  The five matrix products of the fused body are plain [M, K] × [K, N] products: the left operand's second axis is
  contracted with the right operand's first, and there is no batch axis. The result's row indexes the left operand's
  rows, its column the right operand's columns, and the one contraction coordinate the left operand's columns and the
  right operand's rows. The first two products are against the concatenated weights: 3584 = 4 · 896 and 1024 = 4 · 256
  columns.
-/
import proofs.«152690_g2000104654252751_pallasbulk_1105_35_alg».proof.Proof.Gen.KernelIdeal
import proofs.«152690_g2000104654252751_pallasbulk_1105_35_alg».proof.Proof.LibPlainDot

noncomputable section

namespace Cert.KernelIdeal.Hand

open Cert.KernelIdeal Cert.KernelIdeal.Gen Idealize.ShloMosaic Idealize.ShloMosaic.ValueIdx

theorem plain_784_3584 : PlainDot.IsPlain dot_S2048x784_S784x3584_S2048x3584_1_0_0_1_n_n where
  rank := rfl
  size := rfl
  lhs0 := fun _ _ => rfl
  lhs1 := fun i q => DotDims.lhsIdx_val_of_single _ (cl := 1) rfl i q
  rhs0 := fun i q => DotDims.rhsIdx_val_of_single _ (cr := 0) rfl i q
  rhs1 := fun _ _ => rfl

theorem plain_864_1024 : PlainDot.IsPlain dot_S2048x864_S864x1024_S2048x1024_1_0_0_1_n_n where
  rank := rfl
  size := rfl
  lhs0 := fun _ _ => rfl
  lhs1 := fun i q => DotDims.lhsIdx_val_of_single _ (cl := 1) rfl i q
  rhs0 := fun i q => DotDims.rhsIdx_val_of_single _ (cr := 0) rfl i q
  rhs1 := fun _ _ => rfl

theorem plain_192_120 : PlainDot.IsPlain dot_S2048x192_S192x120_S2048x120_1_0_0_1_n_n where
  rank := rfl
  size := rfl
  lhs0 := fun _ _ => rfl
  lhs1 := fun i q => DotDims.lhsIdx_val_of_single _ (cl := 1) rfl i q
  rhs0 := fun i q => DotDims.rhsIdx_val_of_single _ (cr := 0) rfl i q
  rhs1 := fun _ _ => rfl

theorem plain_120_60 : PlainDot.IsPlain dot_S2048x120_S120x60_S2048x60_1_0_0_1_n_n where
  rank := rfl
  size := rfl
  lhs0 := fun _ _ => rfl
  lhs1 := fun i q => DotDims.lhsIdx_val_of_single _ (cl := 1) rfl i q
  rhs0 := fun i q => DotDims.rhsIdx_val_of_single _ (cr := 0) rfl i q
  rhs1 := fun _ _ => rfl

theorem plain_60_128 : PlainDot.IsPlain dot_S2048x60_S60x128_S2048x128_1_0_0_1_n_n where
  rank := rfl
  size := rfl
  lhs0 := fun _ _ => rfl
  lhs1 := fun i q => DotDims.lhsIdx_val_of_single _ (cl := 1) rfl i q
  rhs0 := fun i q => DotDims.rhsIdx_val_of_single _ (cr := 0) rfl i q
  rhs1 := fun _ _ => rfl

end Cert.KernelIdeal.Hand

end
-- ==== Proof.KIValue.lean ====
/-
  What the fused body computes, read at an index on the extended reals.

  The body multiplies the block's rows by the concatenated weights of a pooled stage — matrix k of the stage sitting in
  lanes [W k, W k + n) of a scratch buffer, W = 896, n = 864 for the first stage and W = 256, n = 192 for the second —,
  takes the maximum of the four lane groups, keeps the first n lanes, adds the bias and rectifies. Lane W k + j of the
  product is the row's product with column j of matrix k as soon as the scratch buffer holds that matrix in that lane
  group; what the lanes between the groups hold never reaches the result, because only the first n lanes of each group
  are kept. The maximum of the four groups is taken pairwise, which is the left-to-right maximum by associativity. The
  three dense layers follow, and the result keeps the first 10 columns.
-/
import proofs.«152690_g2000104654252751_pallasbulk_1105_35_alg».proof.Proof.Gen.KernelIdeal.Skeleton
import proofs.«152690_g2000104654252751_pallasbulk_1105_35_alg».proof.Proof.Spec
import proofs.«152690_g2000104654252751_pallasbulk_1105_35_alg».proof.Proof.KIDots
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen LeNetSpec

/-- A unit-stride slice of a matrix read at (r, j): the matrix at the offsets plus (r, j). -/
theorem slice_ix2 {a b a' b' : ℕ} {α : Type} (o0 o1 : ℕ) (x : (⟨2, ![a, b]⟩ : Shape).Idx → α)
    (h : (⟨2, ![a, b]⟩ : Shape).Slices ![o0, o1] ⟨2, ![a', b']⟩) (r : Fin a') (j : Fin b') (r' : Fin a) (j' : Fin b)
    (hr : r'.val = o0 + r.val) (hj : j'.val = o1 + j.val) :
    extractStridedSlice ⟨2, ![a', b']⟩ ![o0, o1] x h (ix2 r j) = x (ix2 r' j') :=
  extractStridedSlice_apply _ x h _ _ fun ax => by
    match ax with
    | ⟨0, _⟩ => exact hr
    | ⟨1, _⟩ => exact hj

/-- The first scratch buffer holds matrix k of the first stage in lanes [896 k, 896 k + 864). -/
def Good0 (x1 : Vec Ideal S4x784x864 .bf16) (S0 : Vec Ideal S784x3584 .bf16) : Prop :=
  ∀ (k : Fin 4) (p : Fin 784) (j : Fin 864) (c : Fin 3584), c.val = 896 * k.val + j.val → S0 (ix2 p c) = x1 (ix3 k p j)

/-- The second scratch buffer holds matrix k of the second stage in lanes [256 k, 256 k + 192). -/
def Good1 (x3 : Vec Ideal S4x864x192 .bf16) (S1 : Vec Ideal S864x1024 .bf16) : Prop :=
  ∀ (k : Fin 4) (p : Fin 864) (j : Fin 192) (c : Fin 1024), c.val = 256 * k.val + j.val → S1 (ix2 p c) = x3 (ix3 k p j)

/-! ## The body's arithmetic in five stages -/

section Stages

variable {F : FTy → Type} [FloatOps F]

/-- The first pooled stage, as the body computes it from the block and the first scratch buffer. -/
def stage1 (v3 : Vec F S2048x784 .bf16) (v5 : Vec F S784x3584 .bf16) (v15 : Vec F S1x864 .f32) : FVec F S2048x864 .bf16 :=
  have v4 : FVec F S2048x784 .bf16 := shapeCast S2048x784 v3 shapeCasts_S2048x784_S2048x784
  have cst : FVec F S2048x3584 .f32 := constant S2048x3584 .f32 0x00000000#32
  have v6 : FVec F S2048x3584 .f32 := matmul dot_S2048x784_S784x3584_S2048x3584_1_0_0_1_n_n none v4 v5 cst
  have v7 : FVec F S2048x896 .f32 := extractStridedSlice S2048x896 ![0, 0] v6 slices_S2048x3584_o0_0_S2048x896
  have v8 : FVec F S2048x896 .f32 := extractStridedSlice S2048x896 ![0, 896] v6 slices_S2048x3584_o0_896_S2048x896
  have v9 : FVec F S2048x896 .f32 := maximumf v7 v8
  have v10 : FVec F S2048x896 .f32 := extractStridedSlice S2048x896 ![0, 1792] v6 slices_S2048x3584_o0_1792_S2048x896
  have v11 : FVec F S2048x896 .f32 := extractStridedSlice S2048x896 ![0, 2688] v6 slices_S2048x3584_o0_2688_S2048x896
  have v12 : FVec F S2048x896 .f32 := maximumf v10 v11
  have v13 : FVec F S2048x896 .f32 := maximumf v9 v12
  have v14 : FVec F S2048x864 .f32 := extractStridedSlice S2048x864 ![0, 0] v13 slices_S2048x896_o0_0_S2048x864
  have v16 : FVec F S2048x864 .f32 := broadcastTo S2048x864 v15 broadcasts_S1x864_S2048x864
  have v17 : FVec F S2048x864 .f32 := addf v14 v16
  have cst_6 : F .f32 := Scalar.ofBits .f32 0x00000000#32
  have v18 : FVec F S2048x864 .f32 := broadcast S2048x864 cst_6
  have v19 : FVec F S2048x864 .f32 := maximumf v17 v18
  truncf .bf16 v19 bitsLt_bf16_f32

/-- The second pooled stage, from the first stage's result and the second scratch buffer. -/
def stage2 (v20 : FVec F S2048x864 .bf16) (v21 : Vec F S864x1024 .bf16) (v31 : Vec F S1x192 .f32) : FVec F S2048x192 .bf16 :=
  have cst_9 : FVec F S2048x1024 .f32 := constant S2048x1024 .f32 0x00000000#32
  have v22 : FVec F S2048x1024 .f32 := matmul dot_S2048x864_S864x1024_S2048x1024_1_0_0_1_n_n none v20 v21 cst_9
  have v23 : FVec F S2048x256 .f32 := extractStridedSlice S2048x256 ![0, 0] v22 slices_S2048x1024_o0_0_S2048x256
  have v24 : FVec F S2048x256 .f32 := extractStridedSlice S2048x256 ![0, 256] v22 slices_S2048x1024_o0_256_S2048x256
  have v25 : FVec F S2048x256 .f32 := maximumf v23 v24
  have v26 : FVec F S2048x256 .f32 := extractStridedSlice S2048x256 ![0, 512] v22 slices_S2048x1024_o0_512_S2048x256
  have v27 : FVec F S2048x256 .f32 := extractStridedSlice S2048x256 ![0, 768] v22 slices_S2048x1024_o0_768_S2048x256
  have v28 : FVec F S2048x256 .f32 := maximumf v26 v27
  have v29 : FVec F S2048x256 .f32 := maximumf v25 v28
  have v30 : FVec F S2048x192 .f32 := extractStridedSlice S2048x192 ![0, 0] v29 slices_S2048x256_o0_0_S2048x192
  have v32 : FVec F S2048x192 .f32 := broadcastTo S2048x192 v31 broadcasts_S1x192_S2048x192
  have v33 : FVec F S2048x192 .f32 := addf v30 v32
  have cst_12 : F .f32 := Scalar.ofBits .f32 0x00000000#32
  have v34 : FVec F S2048x192 .f32 := broadcast S2048x192 cst_12
  have v35 : FVec F S2048x192 .f32 := maximumf v33 v34
  truncf .bf16 v35 bitsLt_bf16_f32

/-- The first dense layer, rectified. -/
def stage3 (v36 : FVec F S2048x192 .bf16) (v37 : Vec F S192x120 .bf16) (v39 : Vec F S1x120 .f32) : FVec F S2048x120 .bf16 :=
  have cst_15 : FVec F S2048x120 .f32 := constant S2048x120 .f32 0x00000000#32
  have v38 : FVec F S2048x120 .f32 := matmul dot_S2048x192_S192x120_S2048x120_1_0_0_1_n_n none v36 v37 cst_15
  have v40 : FVec F S2048x120 .f32 := broadcastTo S2048x120 v39 broadcasts_S1x120_S2048x120
  have v41 : FVec F S2048x120 .f32 := addf v38 v40
  have cst_18 : F .f32 := Scalar.ofBits .f32 0x00000000#32
  have v42 : FVec F S2048x120 .f32 := broadcast S2048x120 cst_18
  have v43 : FVec F S2048x120 .f32 := maximumf v41 v42
  truncf .bf16 v43 bitsLt_bf16_f32

/-- The second dense layer, rectified. -/
def stage4 (v44 : FVec F S2048x120 .bf16) (v45 : Vec F S120x60 .bf16) (v47 : Vec F S1x60 .f32) : FVec F S2048x60 .bf16 :=
  have cst_21 : FVec F S2048x60 .f32 := constant S2048x60 .f32 0x00000000#32
  have v46 : FVec F S2048x60 .f32 := matmul dot_S2048x120_S120x60_S2048x60_1_0_0_1_n_n none v44 v45 cst_21
  have v48 : FVec F S2048x60 .f32 := broadcastTo S2048x60 v47 broadcasts_S1x60_S2048x60
  have v49 : FVec F S2048x60 .f32 := addf v46 v48
  have cst_24 : F .f32 := Scalar.ofBits .f32 0x00000000#32
  have v50 : FVec F S2048x60 .f32 := broadcast S2048x60 cst_24
  have v51 : FVec F S2048x60 .f32 := maximumf v49 v50
  truncf .bf16 v51 bitsLt_bf16_f32

/-- The last dense layer, its first 10 columns kept. -/
def stage5 (v52 : FVec F S2048x60 .bf16) (v53 : Vec F S60x128 .bf16) (v55 : Vec F S1x128 .f32) : FVec F S2048x10 .f32 :=
  have cst_27 : FVec F S2048x128 .f32 := constant S2048x128 .f32 0x00000000#32
  have v54 : FVec F S2048x128 .f32 := matmul dot_S2048x60_S60x128_S2048x128_1_0_0_1_n_n none v52 v53 cst_27
  have v56 : FVec F S2048x128 .f32 := broadcastTo S2048x128 v55 broadcasts_S1x128_S2048x128
  have v57 : FVec F S2048x128 .f32 := addf v54 v56
  extractStridedSlice S2048x10 ![0, 0] v57 slices_S2048x128_o0_0_S2048x10

/-- The output store's payload is the five stages composed. -/
theorem pay_eq (x0 : Vec F S2048x784 .bf16) (S0 : Vec F S784x3584 .bf16) (x2 : Vec F S1x864 .f32)
    (S1 : Vec F S864x1024 .bf16) (x4 : Vec F S1x192 .f32) (x5 : Vec F S192x120 .bf16) (x6 : Vec F S1x120 .f32)
    (x7 : Vec F S120x60 .bf16) (x8 : Vec F S1x60 .f32) (x9 : Vec F S60x128 .bf16) (x10 : Vec F S1x128 .f32) :
    k0_pay1 (k0_pay11 x0 S0 x2 S1 x4 x5) x6 x7 x8 x9 x10
      = stage5 (stage4 (stage3 (stage2 (stage1 x0 S0 x2) S1 x4) x5 x6) x7 x8) x9 x10 := rfl

end Stages

/-! ## Each stage at an index -/

theorem stage1_apply (x0 : Vec Ideal S2048x784 .bf16) (S0 : Vec Ideal S784x3584 .bf16) (x2 : Vec Ideal S1x864 .f32)
    (x1 : Vec Ideal S4x784x864 .bf16) (hG : Good0 x1 S0) (r : Fin 2048) (j : Fin 864) :
    stage1 (F := Ideal) x0 S0 x2 (ix2 r j)
      = pooled (fun k p j => x1 (ix3 k p j)) (fun j => x2 (ix2 0 j)) (fun p => x0 (ix2 r p)) j := by
  have hdot : ∀ (k : Fin 4) (c : Fin 3584), c.val = 896 * k.val + j.val →
      matmul (F := Ideal) (φ₁ := .bf16) (φ₂ := .bf16) dot_S2048x784_S784x3584_S2048x3584_1_0_0_1_n_n none
        (shapeCast S2048x784 x0 shapeCasts_S2048x784_S2048x784 : FVec Ideal S2048x784 .bf16) (S0 : FVec Ideal S784x3584 .bf16)
        (constant S2048x3584 .f32 0x00000000#32) (ix2 r c)
        = ∑ p : Fin 784, x0 (ix2 r p) * x1 (ix3 k p j) := by
    intro k c hc
    simp only [matmul]
    rw [PlainDot.matmul_zero_apply _ plain_784_3584]
    refine Finset.sum_congr rfl fun p _ => ?_
    rw [shapeCast_self, hG k p j c hc]
  have hj : j.val < 896 := by have := j.isLt; omega
  unfold stage1 pooled
  rw [truncf_apply, maximumf_apply, addf_apply, broadcast_apply, broadcastTo_1b_ab_apply,
    slice_ix2 0 0 _ _ r j r ⟨j.val, hj⟩ (by simp) (by simp),
    maximumf_apply, maximumf_apply, maximumf_apply,
    slice_ix2 0 0 _ _ r ⟨j.val, hj⟩ r ⟨j.val, by omega⟩ (by simp) (by simp),
    slice_ix2 0 896 _ _ r ⟨j.val, hj⟩ r ⟨896 + j.val, by omega⟩ (by simp) (by simp),
    slice_ix2 0 1792 _ _ r ⟨j.val, hj⟩ r ⟨1792 + j.val, by omega⟩ (by simp) (by simp),
    slice_ix2 0 2688 _ _ r ⟨j.val, hj⟩ r ⟨2688 + j.val, by omega⟩ (by simp) (by simp),
    hdot 0 _ (by simp), hdot 1 _ (by simp), hdot 2 _ (by simp), hdot 3 _ (by simp)]
  simp only [max_assoc]

theorem stage2_apply (v20 : FVec Ideal S2048x864 .bf16) (S1 : Vec Ideal S864x1024 .bf16) (x4 : Vec Ideal S1x192 .f32)
    (x3 : Vec Ideal S4x864x192 .bf16) (hG : Good1 x3 S1) (r : Fin 2048) (j : Fin 192) :
    stage2 (F := Ideal) v20 S1 x4 (ix2 r j)
      = pooled (fun k p j => x3 (ix3 k p j)) (fun j => x4 (ix2 0 j)) (fun p => v20 (ix2 r p)) j := by
  have hdot : ∀ (k : Fin 4) (c : Fin 1024), c.val = 256 * k.val + j.val →
      matmul (F := Ideal) (φ₁ := .bf16) (φ₂ := .bf16) dot_S2048x864_S864x1024_S2048x1024_1_0_0_1_n_n none
        v20 (S1 : FVec Ideal S864x1024 .bf16) (constant S2048x1024 .f32 0x00000000#32) (ix2 r c)
        = ∑ p : Fin 864, v20 (ix2 r p) * x3 (ix3 k p j) := by
    intro k c hc
    simp only [matmul]
    rw [PlainDot.matmul_zero_apply _ plain_864_1024]
    refine Finset.sum_congr rfl fun p _ => ?_
    rw [hG k p j c hc]
  have hj : j.val < 256 := by have := j.isLt; omega
  unfold stage2 pooled
  rw [truncf_apply, maximumf_apply, addf_apply, broadcast_apply, broadcastTo_1b_ab_apply,
    slice_ix2 0 0 _ _ r j r ⟨j.val, hj⟩ (by simp) (by simp),
    maximumf_apply, maximumf_apply, maximumf_apply,
    slice_ix2 0 0 _ _ r ⟨j.val, hj⟩ r ⟨j.val, by omega⟩ (by simp) (by simp),
    slice_ix2 0 256 _ _ r ⟨j.val, hj⟩ r ⟨256 + j.val, by omega⟩ (by simp) (by simp),
    slice_ix2 0 512 _ _ r ⟨j.val, hj⟩ r ⟨512 + j.val, by omega⟩ (by simp) (by simp),
    slice_ix2 0 768 _ _ r ⟨j.val, hj⟩ r ⟨768 + j.val, by omega⟩ (by simp) (by simp),
    hdot 0 _ (by simp), hdot 1 _ (by simp), hdot 2 _ (by simp), hdot 3 _ (by simp)]
  simp only [max_assoc]

theorem stage3_apply (v36 : FVec Ideal S2048x192 .bf16) (x5 : Vec Ideal S192x120 .bf16) (x6 : Vec Ideal S1x120 .f32)
    (r : Fin 2048) (j : Fin 120) :
    stage3 (F := Ideal) v36 x5 x6 (ix2 r j)
      = max (dense (fun p j => x5 (ix2 p j)) (fun j => x6 (ix2 0 j)) (fun p => v36 (ix2 r p)) j) z := by
  unfold stage3 dense
  rw [truncf_apply, maximumf_apply, addf_apply, broadcast_apply, broadcastTo_1b_ab_apply]
  simp only [matmul]
  rw [PlainDot.matmul_zero_apply _ plain_192_120]

theorem stage4_apply (v44 : FVec Ideal S2048x120 .bf16) (x7 : Vec Ideal S120x60 .bf16) (x8 : Vec Ideal S1x60 .f32)
    (r : Fin 2048) (j : Fin 60) :
    stage4 (F := Ideal) v44 x7 x8 (ix2 r j)
      = max (dense (fun p j => x7 (ix2 p j)) (fun j => x8 (ix2 0 j)) (fun p => v44 (ix2 r p)) j) z := by
  unfold stage4 dense
  rw [truncf_apply, maximumf_apply, addf_apply, broadcast_apply, broadcastTo_1b_ab_apply]
  simp only [matmul]
  rw [PlainDot.matmul_zero_apply _ plain_120_60]

theorem stage5_apply (v52 : FVec Ideal S2048x60 .bf16) (x9 : Vec Ideal S60x128 .bf16) (x10 : Vec Ideal S1x128 .f32)
    (r : Fin 2048) (j : Fin 10) :
    stage5 (F := Ideal) v52 x9 x10 (ix2 r j)
      = dense (fun p j => x9 (ix2 p j)) (fun j => x10 (ix2 0 j)) (fun p => v52 (ix2 r p)) (Fin.castLE (by decide) j) := by
  unfold stage5 dense
  rw [slice_ix2 0 0 _ _ r j r (Fin.castLE (by decide) j) (by simp) (by simp), addf_apply, broadcastTo_1b_ab_apply]
  simp only [matmul]
  rw [PlainDot.matmul_zero_apply _ plain_60_128]

/-! ## The output block -/

/-- The block of the result a grid point writes: the network on each row of the point's block of images. -/
def blkOut (x0 : Vec Ideal S2048x784 .bf16) (x1 : Vec Ideal S4x784x864 .bf16) (x2 : Vec Ideal S1x864 .f32)
    (x3 : Vec Ideal S4x864x192 .bf16) (x4 : Vec Ideal S1x192 .f32) (x5 : Vec Ideal S192x120 .bf16) (x6 : Vec Ideal S1x120 .f32)
    (x7 : Vec Ideal S120x60 .bf16) (x8 : Vec Ideal S1x60 .f32) (x9 : Vec Ideal S60x128 .bf16) (x10 : Vec Ideal S1x128 .f32) :
    Vec Ideal S2048x10 .f32 :=
  fun y => netOf x1 x2 x3 x4 x5 x6 x7 x8 x9 x10 (fun p => x0 (ix2 (y 0) p)) (Fin.castLE (by decide) (y 1))

/-- The output store's payload is that block, whenever the scratch buffers hold the stages' matrices in their lane
    groups. -/
theorem out_eq (x0 : Vec Ideal S2048x784 .bf16) (x1 : Vec Ideal S4x784x864 .bf16) (x2 : Vec Ideal S1x864 .f32)
    (x3 : Vec Ideal S4x864x192 .bf16) (x4 : Vec Ideal S1x192 .f32) (x5 : Vec Ideal S192x120 .bf16) (x6 : Vec Ideal S1x120 .f32)
    (x7 : Vec Ideal S120x60 .bf16) (x8 : Vec Ideal S1x60 .f32) (x9 : Vec Ideal S60x128 .bf16) (x10 : Vec Ideal S1x128 .f32)
    (S0 : Vec Ideal S784x3584 .bf16) (S1 : Vec Ideal S864x1024 .bf16) (hG0 : Good0 x1 S0) (hG1 : Good1 x3 S1) :
    k0_pay1 (F := Ideal) (k0_pay11 x0 S0 x2 S1 x4 x5) x6 x7 x8 x9 x10 = blkOut x0 x1 x2 x3 x4 x5 x6 x7 x8 x9 x10 := by
  rw [pay_eq]
  funext y
  obtain ⟨r, j, rfl⟩ : ∃ (r : Fin 2048) (j : Fin 10), y = ix2 r j := ⟨y 0, y 1, eq_ix2 y⟩
  rw [stage5_apply]
  unfold blkOut netOf net
  simp only [stage4_apply, stage3_apply, stage2_apply _ _ _ x3 hG1, stage1_apply _ _ _ x1 hG0]
  rfl

end Cert.KernelIdeal.Hand

end
-- ==== Proof.KIOut.lean ====
/-
  What the body leaves behind, read as values on the extended reals.

  At the first grid point the body's stores copy matrix k of a pooled stage into lanes [W k, W k + n) of the stage's
  scratch buffer (W = 896, n = 864; W = 256, n = 192). The four rectangles are disjoint on the lane axis, so a lane of
  group k reads the k-th store's payload — the loaded slab k of the weights, recast from [1, rows, n] to [rows, n] — and
  the lanes no store touches keep what the buffer held. So after the first point each scratch buffer holds the
  stage's matrices in their lane groups, whatever it held before, and that is all the output block depends on: the
  one store that covers the output buffer writes the network applied to the rows of the point's block of images.
-/
import proofs.«152690_g2000104654252751_pallasbulk_1105_35_alg».proof.Proof.KIRunA
import proofs.«152690_g2000104654252751_pallasbulk_1105_35_alg».proof.Proof.KIRunB
import proofs.«152690_g2000104654252751_pallasbulk_1105_35_alg».proof.Proof.KIValue
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

theorem hz2 : (![0, 0] : Fin 2 → Nat) = fun _ => 0 := funext fun a => by fin_cases a <;> rfl

/-- Slab k of the first stage's weights, loaded as [1, 784, 864] and recast to [784, 864], read at (p, j). -/
theorem slab0 (arg : Memref sig .tc .vmem S4x784x864 .bf16) (harg : arg.IsWhole) (x1 : Vec Ideal S4x784x864 .bf16) (k : Fin 4)
    (inb : ∀ a, (![k.val, 0, 0] : Fin 3 → ℕ) a + S1x784x864.size a ≤ S4x784x864.size a)
    (h1 : S1x784x864.ShapeCasts S784x864) (h2 : S784x864.ShapeCasts S784x864) (p : Fin 784) (j : Fin 864) :
    shapeCast S784x864 (shapeCast S784x864 (View.readAt (Elt Ideal) arg.view
      (Rect.unit (s := S4x784x864) ![k.val, 0, 0] S1x784x864.size inb).toLoadRect (harg.unread x1)) h1) h2 (ix2 p j) = x1 (ix3 k p j) := by
  rw [shapeCast_self, shapeCast_apply _ _ (ix2 p j) (ix3 (0 : Fin 1) p j) (by
    rw [Shape.rowMajor_val_three, Shape.rowMajor_val_two]; simp)]
  show arg.view.read (Elt Ideal) (harg.unread x1) _ = _
  rw [harg.read_unread]
  congr 1
  funext a
  apply Fin.ext
  match a with
  | ⟨0, _⟩ => show k.val + 1 * 0 = k.val; omega
  | ⟨1, _⟩ => show 0 + 1 * p.val = p.val; omega
  | ⟨2, _⟩ => show 0 + 1 * j.val = j.val; omega

/-- Slab k of the second stage's weights, loaded as [1, 864, 192] and recast to [864, 192], read at (p, j). -/
theorem slab1 (arg : Memref sig .tc .vmem S4x864x192 .bf16) (harg : arg.IsWhole) (x1 : Vec Ideal S4x864x192 .bf16) (k : Fin 4)
    (inb : ∀ a, (![k.val, 0, 0] : Fin 3 → ℕ) a + S1x864x192.size a ≤ S4x864x192.size a)
    (h1 : S1x864x192.ShapeCasts S864x192) (h2 : S864x192.ShapeCasts S864x192) (p : Fin 864) (j : Fin 192) :
    shapeCast S864x192 (shapeCast S864x192 (View.readAt (Elt Ideal) arg.view
      (Rect.unit (s := S4x864x192) ![k.val, 0, 0] S1x864x192.size inb).toLoadRect (harg.unread x1)) h1) h2 (ix2 p j) = x1 (ix3 k p j) := by
  rw [shapeCast_self, shapeCast_apply _ _ (ix2 p j) (ix3 (0 : Fin 1) p j) (by
    rw [Shape.rowMajor_val_three, Shape.rowMajor_val_two]; simp)]
  show arg.view.read (Elt Ideal) (harg.unread x1) _ = _
  rw [harg.read_unread]
  congr 1
  funext a
  apply Fin.ext
  match a with
  | ⟨0, _⟩ => show k.val + 1 * 0 = k.val; omega
  | ⟨1, _⟩ => show 0 + 1 * p.val = p.val; omega
  | ⟨2, _⟩ => show 0 + 1 * j.val = j.val; omega

/-- After the first point's stores the first scratch buffer holds the first stage's matrices in their lane groups. -/
theorem good0_A (c : Dev nD) (i : grid0.Coords) (arg1 : Memref sig .tc .vmem S2048x784 .bf16) (harg1 : arg1.IsWhole) (arg2 : Memref sig .tc .vmem S4x784x864 .bf16) (harg2 : arg2.IsWhole) (arg3 : Memref sig .tc .vmem S1x864 .f32) (harg3 : arg3.IsWhole) (arg4 : Memref sig .tc .vmem S4x864x192 .bf16) (harg4 : arg4.IsWhole) (arg5 : Memref sig .tc .vmem S1x192 .f32) (harg5 : arg5.IsWhole) (arg6 : Memref sig .tc .vmem S192x120 .bf16) (harg6 : arg6.IsWhole) (arg7 : Memref sig .tc .vmem S1x120 .f32) (harg7 : arg7.IsWhole) (arg8 : Memref sig .tc .vmem S120x60 .bf16) (harg8 : arg8.IsWhole) (arg9 : Memref sig .tc .vmem S1x60 .f32) (harg9 : arg9.IsWhole) (arg10 : Memref sig .tc .vmem S60x128 .bf16) (harg10 : arg10.IsWhole) (arg11 : Memref sig .tc .vmem S1x128 .f32) (harg11 : arg11.IsWhole) (arg12 : Memref sig .tc .vmem S2048x10 .f32) (harg12 : arg12.IsWhole) (arg13 : Memref sig .tc .vmem S784x3584 .bf16) (harg13 : arg13.IsWhole) (arg14 : Memref sig .tc .vmem S864x1024 .bf16) (harg14 : arg14.IsWhole) (hc0 : condA i)
    (x0 : Vec Ideal S2048x784 .bf16) (x1 : Vec Ideal S4x784x864 .bf16) (x2 : Vec Ideal S1x864 .f32) (x3 : Vec Ideal S4x864x192 .bf16) (x4 : Vec Ideal S1x192 .f32) (x5 : Vec Ideal S192x120 .bf16) (x6 : Vec Ideal S1x120 .f32) (x7 : Vec Ideal S120x60 .bf16) (x8 : Vec Ideal S1x60 .f32) (x9 : Vec Ideal S60x128 .bf16) (x10 : Vec Ideal S1x128 .f32) (s0 : Vec Ideal S784x3584 .bf16) (s1 : Vec Ideal S864x1024 .bf16) :
    Good0 x1 (arg13.view.read (Elt Ideal) (arg13.view.writes (Elt Ideal) (harg13.unread s0)
      (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 s0 s1).2.1)) := by
  intro k p j cc hc
  have harg := harg2
  unfold runA
  dsimp only
  sl_unfold_run_names
  unfold k0_pay9
  match k, hc with
  | ⟨0, _⟩, hc =>
    have hc' : cc.val = 0 + j.val := by simpa using hc
    refine (View.read_writes_cons_unit_of_not_mem _ _ _ _ _ _ rfl (1 : Fin 2) ?_).trans ?_
    · show cc.val < 2688 ∨ 2688 + _ ≤ cc.val
      left; omega
    refine (View.read_writes_cons_unit_of_not_mem _ _ _ _ _ _ rfl (1 : Fin 2) ?_).trans ?_
    · show cc.val < 1792 ∨ 1792 + _ ≤ cc.val
      left; omega
    refine (View.read_writes_cons_unit_of_not_mem _ _ _ _ _ _ rfl (1 : Fin 2) ?_).trans ?_
    · show cc.val < 896 ∨ 896 + _ ≤ cc.val
      left; omega
    refine (View.read_writes_cons_unit_of_mem _ _ _ _ _ _ (ix2 p j) rfl (fun a => ?_)).trans ?_
    · match a with
      | ⟨0, _⟩ => show p.val = 0 + p.val; omega
      | ⟨1, _⟩ => show cc.val = 0 + j.val; omega
    · exact slab0 _ harg x1 0 _ _ _ p j
  | ⟨1, _⟩, hc =>
    have hc' : cc.val = 896 + j.val := by simpa using hc
    refine (View.read_writes_cons_unit_of_not_mem _ _ _ _ _ _ rfl (1 : Fin 2) ?_).trans ?_
    · show cc.val < 2688 ∨ 2688 + _ ≤ cc.val
      left; omega
    refine (View.read_writes_cons_unit_of_not_mem _ _ _ _ _ _ rfl (1 : Fin 2) ?_).trans ?_
    · show cc.val < 1792 ∨ 1792 + _ ≤ cc.val
      left; omega
    refine (View.read_writes_cons_unit_of_mem _ _ _ _ _ _ (ix2 p j) rfl (fun a => ?_)).trans ?_
    · match a with
      | ⟨0, _⟩ => show p.val = 0 + p.val; omega
      | ⟨1, _⟩ => show cc.val = 896 + j.val; omega
    · exact slab0 _ harg x1 1 _ _ _ p j
  | ⟨2, _⟩, hc =>
    have hc' : cc.val = 1792 + j.val := by simpa using hc
    refine (View.read_writes_cons_unit_of_not_mem _ _ _ _ _ _ rfl (1 : Fin 2) ?_).trans ?_
    · show cc.val < 2688 ∨ 2688 + _ ≤ cc.val
      left; omega
    refine (View.read_writes_cons_unit_of_mem _ _ _ _ _ _ (ix2 p j) rfl (fun a => ?_)).trans ?_
    · match a with
      | ⟨0, _⟩ => show p.val = 0 + p.val; omega
      | ⟨1, _⟩ => show cc.val = 1792 + j.val; omega
    · exact slab0 _ harg x1 2 _ _ _ p j
  | ⟨3, _⟩, hc =>
    have hc' : cc.val = 2688 + j.val := by simpa using hc
    refine (View.read_writes_cons_unit_of_mem _ _ _ _ _ _ (ix2 p j) rfl (fun a => ?_)).trans ?_
    · match a with
      | ⟨0, _⟩ => show p.val = 0 + p.val; omega
      | ⟨1, _⟩ => show cc.val = 2688 + j.val; omega
    · exact slab0 _ harg x1 3 _ _ _ p j

/-- After the first point's stores the second scratch buffer holds the second stage's matrices in their lane groups. -/
theorem good1_A (c : Dev nD) (i : grid0.Coords) (arg1 : Memref sig .tc .vmem S2048x784 .bf16) (harg1 : arg1.IsWhole) (arg2 : Memref sig .tc .vmem S4x784x864 .bf16) (harg2 : arg2.IsWhole) (arg3 : Memref sig .tc .vmem S1x864 .f32) (harg3 : arg3.IsWhole) (arg4 : Memref sig .tc .vmem S4x864x192 .bf16) (harg4 : arg4.IsWhole) (arg5 : Memref sig .tc .vmem S1x192 .f32) (harg5 : arg5.IsWhole) (arg6 : Memref sig .tc .vmem S192x120 .bf16) (harg6 : arg6.IsWhole) (arg7 : Memref sig .tc .vmem S1x120 .f32) (harg7 : arg7.IsWhole) (arg8 : Memref sig .tc .vmem S120x60 .bf16) (harg8 : arg8.IsWhole) (arg9 : Memref sig .tc .vmem S1x60 .f32) (harg9 : arg9.IsWhole) (arg10 : Memref sig .tc .vmem S60x128 .bf16) (harg10 : arg10.IsWhole) (arg11 : Memref sig .tc .vmem S1x128 .f32) (harg11 : arg11.IsWhole) (arg12 : Memref sig .tc .vmem S2048x10 .f32) (harg12 : arg12.IsWhole) (arg13 : Memref sig .tc .vmem S784x3584 .bf16) (harg13 : arg13.IsWhole) (arg14 : Memref sig .tc .vmem S864x1024 .bf16) (harg14 : arg14.IsWhole) (hc0 : condA i)
    (x0 : Vec Ideal S2048x784 .bf16) (x1 : Vec Ideal S4x784x864 .bf16) (x2 : Vec Ideal S1x864 .f32) (x3 : Vec Ideal S4x864x192 .bf16) (x4 : Vec Ideal S1x192 .f32) (x5 : Vec Ideal S192x120 .bf16) (x6 : Vec Ideal S1x120 .f32) (x7 : Vec Ideal S120x60 .bf16) (x8 : Vec Ideal S1x60 .f32) (x9 : Vec Ideal S60x128 .bf16) (x10 : Vec Ideal S1x128 .f32) (s0 : Vec Ideal S784x3584 .bf16) (s1 : Vec Ideal S864x1024 .bf16) :
    Good1 x3 (arg14.view.read (Elt Ideal) (arg14.view.writes (Elt Ideal) (harg14.unread s1)
      (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 s0 s1).2.2.1)) := by
  intro k p j cc hc
  have harg := harg4
  have x1 := x3
  unfold runA
  dsimp only
  sl_unfold_run_names
  unfold k0_pay10 k0_pay8
  match k, hc with
  | ⟨0, _⟩, hc =>
    have hc' : cc.val = 0 + j.val := by simpa using hc
    refine (View.read_writes_cons_unit_of_not_mem _ _ _ _ _ _ rfl (1 : Fin 2) ?_).trans ?_
    · show cc.val < 768 ∨ 768 + _ ≤ cc.val
      left; omega
    refine (View.read_writes_cons_unit_of_not_mem _ _ _ _ _ _ rfl (1 : Fin 2) ?_).trans ?_
    · show cc.val < 512 ∨ 512 + _ ≤ cc.val
      left; omega
    refine (View.read_writes_cons_unit_of_not_mem _ _ _ _ _ _ rfl (1 : Fin 2) ?_).trans ?_
    · show cc.val < 256 ∨ 256 + _ ≤ cc.val
      left; omega
    refine (View.read_writes_cons_unit_of_mem _ _ _ _ _ _ (ix2 p j) rfl (fun a => ?_)).trans ?_
    · match a with
      | ⟨0, _⟩ => show p.val = 0 + p.val; omega
      | ⟨1, _⟩ => show cc.val = 0 + j.val; omega
    · exact slab1 _ harg4 x3 0 _ _ _ p j
  | ⟨1, _⟩, hc =>
    have hc' : cc.val = 256 + j.val := by simpa using hc
    refine (View.read_writes_cons_unit_of_not_mem _ _ _ _ _ _ rfl (1 : Fin 2) ?_).trans ?_
    · show cc.val < 768 ∨ 768 + _ ≤ cc.val
      left; omega
    refine (View.read_writes_cons_unit_of_not_mem _ _ _ _ _ _ rfl (1 : Fin 2) ?_).trans ?_
    · show cc.val < 512 ∨ 512 + _ ≤ cc.val
      left; omega
    refine (View.read_writes_cons_unit_of_mem _ _ _ _ _ _ (ix2 p j) rfl (fun a => ?_)).trans ?_
    · match a with
      | ⟨0, _⟩ => show p.val = 0 + p.val; omega
      | ⟨1, _⟩ => show cc.val = 256 + j.val; omega
    · exact slab1 _ harg4 x3 1 _ _ _ p j
  | ⟨2, _⟩, hc =>
    have hc' : cc.val = 512 + j.val := by simpa using hc
    refine (View.read_writes_cons_unit_of_not_mem _ _ _ _ _ _ rfl (1 : Fin 2) ?_).trans ?_
    · show cc.val < 768 ∨ 768 + _ ≤ cc.val
      left; omega
    refine (View.read_writes_cons_unit_of_mem _ _ _ _ _ _ (ix2 p j) rfl (fun a => ?_)).trans ?_
    · match a with
      | ⟨0, _⟩ => show p.val = 0 + p.val; omega
      | ⟨1, _⟩ => show cc.val = 512 + j.val; omega
    · exact slab1 _ harg4 x3 2 _ _ _ p j
  | ⟨3, _⟩, hc =>
    have hc' : cc.val = 768 + j.val := by simpa using hc
    refine (View.read_writes_cons_unit_of_mem _ _ _ _ _ _ (ix2 p j) rfl (fun a => ?_)).trans ?_
    · match a with
      | ⟨0, _⟩ => show p.val = 0 + p.val; omega
      | ⟨1, _⟩ => show cc.val = 768 + j.val; omega
    · exact slab1 _ harg4 x3 3 _ _ _ p j

/-- The store that covers the output buffer at the first point writes the network's block: the scratch buffers it
    reads are the ones its own stores have just filled. -/
theorem outA_eq (c : Dev nD) (i : grid0.Coords) (arg1 : Memref sig .tc .vmem S2048x784 .bf16) (harg1 : arg1.IsWhole) (arg2 : Memref sig .tc .vmem S4x784x864 .bf16) (harg2 : arg2.IsWhole) (arg3 : Memref sig .tc .vmem S1x864 .f32) (harg3 : arg3.IsWhole) (arg4 : Memref sig .tc .vmem S4x864x192 .bf16) (harg4 : arg4.IsWhole) (arg5 : Memref sig .tc .vmem S1x192 .f32) (harg5 : arg5.IsWhole) (arg6 : Memref sig .tc .vmem S192x120 .bf16) (harg6 : arg6.IsWhole) (arg7 : Memref sig .tc .vmem S1x120 .f32) (harg7 : arg7.IsWhole) (arg8 : Memref sig .tc .vmem S120x60 .bf16) (harg8 : arg8.IsWhole) (arg9 : Memref sig .tc .vmem S1x60 .f32) (harg9 : arg9.IsWhole) (arg10 : Memref sig .tc .vmem S60x128 .bf16) (harg10 : arg10.IsWhole) (arg11 : Memref sig .tc .vmem S1x128 .f32) (harg11 : arg11.IsWhole) (arg12 : Memref sig .tc .vmem S2048x10 .f32) (harg12 : arg12.IsWhole) (arg13 : Memref sig .tc .vmem S784x3584 .bf16) (harg13 : arg13.IsWhole) (arg14 : Memref sig .tc .vmem S864x1024 .bf16) (harg14 : arg14.IsWhole) (hc0 : condA i)
    (x0 : Vec Ideal S2048x784 .bf16) (x1 : Vec Ideal S4x784x864 .bf16) (x2 : Vec Ideal S1x864 .f32) (x3 : Vec Ideal S4x864x192 .bf16) (x4 : Vec Ideal S1x192 .f32) (x5 : Vec Ideal S192x120 .bf16) (x6 : Vec Ideal S1x120 .f32) (x7 : Vec Ideal S120x60 .bf16) (x8 : Vec Ideal S1x60 .f32) (x9 : Vec Ideal S60x128 .bf16) (x10 : Vec Ideal S1x128 .f32) (s0 : Vec Ideal S784x3584 .bf16) (s1 : Vec Ideal S864x1024 .bf16) (f : arg12.view.ty.Contents (Elt Ideal)) :
    arg12.view.read (Elt Ideal) (arg12.view.writes (Elt Ideal) f
      (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 s0 s1).1) = blkOut x0 x1 x2 x3 x4 x5 x6 x7 x8 x9 x10 := by
  have hG0 := good0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 s0 s1
  have hG1 := good1_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 s0 s1
  rw [← out_eq x0 x1 x2 x3 x4 x5 x6 x7 x8 x9 x10 _ _ hG0 hG1]
  unfold runA
  dsimp only
  funext y
  refine (View.read_writes_cons_unit_of_mem _ _ _ _ _ y y rfl (fun a => ?_)).trans ?_
  · match a with
    | ⟨0, _⟩ => show (y 0).val = 0 + (y 0).val; omega
    | ⟨1, _⟩ => show (y 1).val = 0 + (y 1).val; omega
  · sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S2048x784) hz2, View.ld_unit_zero (S := S784x3584) hz2, View.ld_unit_zero (S := S1x864) hz2, View.ld_unit_zero (S := S864x1024) hz2, View.ld_unit_zero (S := S1x192) hz2, View.ld_unit_zero (S := S192x120) hz2, View.ld_unit_zero (S := S1x120) hz2, View.ld_unit_zero (S := S120x60) hz2, View.ld_unit_zero (S := S1x60) hz2, View.ld_unit_zero (S := S60x128) hz2, View.ld_unit_zero (S := S1x128) hz2]

/-- The store that covers the output buffer at a later point writes the network's block, as soon as the scratch
    buffers hold the stages' matrices in their lane groups. -/
theorem outB_eq (c : Dev nD) (i : grid0.Coords) (arg1 : Memref sig .tc .vmem S2048x784 .bf16) (harg1 : arg1.IsWhole) (arg2 : Memref sig .tc .vmem S4x784x864 .bf16) (harg2 : arg2.IsWhole) (arg3 : Memref sig .tc .vmem S1x864 .f32) (harg3 : arg3.IsWhole) (arg4 : Memref sig .tc .vmem S4x864x192 .bf16) (harg4 : arg4.IsWhole) (arg5 : Memref sig .tc .vmem S1x192 .f32) (harg5 : arg5.IsWhole) (arg6 : Memref sig .tc .vmem S192x120 .bf16) (harg6 : arg6.IsWhole) (arg7 : Memref sig .tc .vmem S1x120 .f32) (harg7 : arg7.IsWhole) (arg8 : Memref sig .tc .vmem S120x60 .bf16) (harg8 : arg8.IsWhole) (arg9 : Memref sig .tc .vmem S1x60 .f32) (harg9 : arg9.IsWhole) (arg10 : Memref sig .tc .vmem S60x128 .bf16) (harg10 : arg10.IsWhole) (arg11 : Memref sig .tc .vmem S1x128 .f32) (harg11 : arg11.IsWhole) (arg12 : Memref sig .tc .vmem S2048x10 .f32) (harg12 : arg12.IsWhole) (arg13 : Memref sig .tc .vmem S784x3584 .bf16) (harg13 : arg13.IsWhole) (arg14 : Memref sig .tc .vmem S864x1024 .bf16) (harg14 : arg14.IsWhole) (hc0 : ¬condA i)
    (x0 : Vec Ideal S2048x784 .bf16) (x1 : Vec Ideal S4x784x864 .bf16) (x2 : Vec Ideal S1x864 .f32) (x3 : Vec Ideal S4x864x192 .bf16) (x4 : Vec Ideal S1x192 .f32) (x5 : Vec Ideal S192x120 .bf16) (x6 : Vec Ideal S1x120 .f32) (x7 : Vec Ideal S120x60 .bf16) (x8 : Vec Ideal S1x60 .f32) (x9 : Vec Ideal S60x128 .bf16) (x10 : Vec Ideal S1x128 .f32) (s0 : Vec Ideal S784x3584 .bf16) (s1 : Vec Ideal S864x1024 .bf16) (hG0 : Good0 x1 s0) (hG1 : Good1 x3 s1)
    (f : arg12.view.ty.Contents (Elt Ideal)) :
    arg12.view.read (Elt Ideal) (arg12.view.writes (Elt Ideal) f
      (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 s0 s1).1) = blkOut x0 x1 x2 x3 x4 x5 x6 x7 x8 x9 x10 := by
  rw [← out_eq x0 x1 x2 x3 x4 x5 x6 x7 x8 x9 x10 _ _ hG0 hG1]
  unfold runB
  dsimp only
  funext y
  refine (View.read_writes_cons_unit_of_mem _ _ _ _ _ y y rfl (fun a => ?_)).trans ?_
  · match a with
    | ⟨0, _⟩ => show (y 0).val = 0 + (y 0).val; omega
    | ⟨1, _⟩ => show (y 1).val = 0 + (y 1).val; omega
  · sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg13.read_unread, harg14.read_unread, View.ld_unit_zero (S := S2048x784) hz2, View.ld_unit_zero (S := S784x3584) hz2, View.ld_unit_zero (S := S1x864) hz2, View.ld_unit_zero (S := S864x1024) hz2, View.ld_unit_zero (S := S1x192) hz2, View.ld_unit_zero (S := S192x120) hz2, View.ld_unit_zero (S := S1x120) hz2, View.ld_unit_zero (S := S120x60) hz2, View.ld_unit_zero (S := S1x60) hz2, View.ld_unit_zero (S := S60x128) hz2, View.ld_unit_zero (S := S1x128) hz2]

end Cert.KernelIdeal.Hand

end
-- ==== Proof.KIBlocks.lean ====
/- How the windows of the idealized program's one region read their arrays.

   The grid has four points. Windows 1 to 10 stage the ten weight and bias arrays whole — their index maps are
   constantly zero — so the block of each at any point is the array itself. Window 0 (the batch of images, rounded)
   and window 11 (the batch of outputs) are cut along the batch axis into four blocks of 2048 rows, point `t` taking
   rows `2048 t` to `2048 t + 2047`; the four blocks of window 11, each written back at its point, cover the array. -/
import proofs.«152690_g2000104654252751_pallasbulk_1105_35_alg».proof.Proof.Gen.KernelIdeal.Frame
import proofs.«152690_g2000104654252751_pallasbulk_1105_35_alg».proof.Proof.Gen.KernelIdeal.Points
import Idealize.ShloMosaic.Lib.ValueIdx
import Idealize.ShloMosaic.Lib.Pipeline.Value

set_option maxRecDepth 16384

noncomputable section

namespace Cert.KernelIdeal.Hand

open Cert.KernelIdeal Cert.KernelIdeal.Gen Idealize.ShloMosaic.ValueIdx
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-! ## The index maps, decided over the grid -/

/-- Window 0's block index at point `t` is `(t, 0)`. -/
theorem idx0 : ∀ t : Fin cfg0.N, win0_0.index t (0 : Fin 2) = t.val ∧ win0_0.index t (1 : Fin 2) = 0 :=
  (by decide +kernel : ∀ t : Fin grid0.N, _)

/-- Window 11's block index at point `t` is `(t, 0)`. -/
theorem idx11 : ∀ t : Fin cfg0.N, win0_11.index t (0 : Fin 2) = t.val ∧ win0_11.index t (1 : Fin 2) = 0 :=
  (by decide +kernel : ∀ t : Fin grid0.N, _)

/-- Windows 1 to 10 have block index zero on every axis at every point. -/
theorem idx_in : ∀ t : Fin cfg0.N,
    win0_1.index t (0 : Fin 3) = 0
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 3) = 0
    ∧ win0_3.index t (1 : Fin 3) = 0
    ∧ win0_3.index t (2 : Fin 3) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-! ## Windows 1 to 10: the block is the array -/

/-- Window 1 stages its whole array at every point: its block there is the array `main_arg0` as the region finds it. -/
theorem iblk1_eq (c : Dev nD) (t : Fin cfg0.N) : (iblk m c 1 t : Vec F S4x784x864 .bf16) = V m c main_arg0 := by
  obtain ⟨z1_0, z1_1, z1_2, z2_0, z2_1, z3_0, z3_1, z3_2, z4_0, z4_1, z5_0, z5_1, z6_0, z6_1, z7_0, z7_1, z8_0, z8_1, z9_0, z9_1, z10_0, z10_1⟩ := idx_in t
  funext y
  show V m c main_arg0 (((cfg0.win 1).blk t).view.emb y) = V m c main_arg0 y
  have h : ((cfg0.win 1).blk t).view.emb y = y := by
    funext a; apply Fin.ext
    match a with
    | ⟨0, _⟩ => show win0_1.index t (0 : Fin 3) * 4 + 1 * (y 0).val = (y 0).val; omega
    | ⟨1, _⟩ => show win0_1.index t (1 : Fin 3) * 784 + 1 * (y 1).val = (y 1).val; omega
    | ⟨2, _⟩ => show win0_1.index t (2 : Fin 3) * 864 + 1 * (y 2).val = (y 2).val; omega
  rw [h]

/-- Window 2 stages its whole array at every point: its block there is the array `main_arg1` as the region finds it. -/
theorem iblk2_eq (c : Dev nD) (t : Fin cfg0.N) : (iblk m c 2 t : Vec F S1x864 .f32) = V m c main_arg1 := by
  obtain ⟨z1_0, z1_1, z1_2, z2_0, z2_1, z3_0, z3_1, z3_2, z4_0, z4_1, z5_0, z5_1, z6_0, z6_1, z7_0, z7_1, z8_0, z8_1, z9_0, z9_1, z10_0, z10_1⟩ := idx_in t
  funext y
  show V m c main_arg1 (((cfg0.win 2).blk t).view.emb y) = V m c main_arg1 y
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 864 + 1 * (y 1).val = (y 1).val; omega
  rw [h]

/-- Window 3 stages its whole array at every point: its block there is the array `main_arg2` as the region finds it. -/
theorem iblk3_eq (c : Dev nD) (t : Fin cfg0.N) : (iblk m c 3 t : Vec F S4x864x192 .bf16) = V m c main_arg2 := by
  obtain ⟨z1_0, z1_1, z1_2, z2_0, z2_1, z3_0, z3_1, z3_2, z4_0, z4_1, z5_0, z5_1, z6_0, z6_1, z7_0, z7_1, z8_0, z8_1, z9_0, z9_1, z10_0, z10_1⟩ := idx_in t
  funext y
  show V m c main_arg2 (((cfg0.win 3).blk t).view.emb y) = V m c main_arg2 y
  have h : ((cfg0.win 3).blk t).view.emb y = y := by
    funext a; apply Fin.ext
    match a with
    | ⟨0, _⟩ => show win0_3.index t (0 : Fin 3) * 4 + 1 * (y 0).val = (y 0).val; omega
    | ⟨1, _⟩ => show win0_3.index t (1 : Fin 3) * 864 + 1 * (y 1).val = (y 1).val; omega
    | ⟨2, _⟩ => show win0_3.index t (2 : Fin 3) * 192 + 1 * (y 2).val = (y 2).val; omega
  rw [h]

/-- Window 4 stages its whole array at every point: its block there is the array `main_arg3` as the region finds it. -/
theorem iblk4_eq (c : Dev nD) (t : Fin cfg0.N) : (iblk m c 4 t : Vec F S1x192 .f32) = V m c main_arg3 := by
  obtain ⟨z1_0, z1_1, z1_2, z2_0, z2_1, z3_0, z3_1, z3_2, z4_0, z4_1, z5_0, z5_1, z6_0, z6_1, z7_0, z7_1, z8_0, z8_1, z9_0, z9_1, z10_0, z10_1⟩ := idx_in t
  funext y
  show V m c main_arg3 (((cfg0.win 4).blk t).view.emb y) = V m c main_arg3 y
  have h : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 192 + 1 * (y 1).val = (y 1).val; omega
  rw [h]

/-- Window 5 stages its whole array at every point: its block there is the array `main_arg4` as the region finds it. -/
theorem iblk5_eq (c : Dev nD) (t : Fin cfg0.N) : (iblk m c 5 t : Vec F S192x120 .bf16) = V m c main_arg4 := by
  obtain ⟨z1_0, z1_1, z1_2, z2_0, z2_1, z3_0, z3_1, z3_2, z4_0, z4_1, z5_0, z5_1, z6_0, z6_1, z7_0, z7_1, z8_0, z8_1, z9_0, z9_1, z10_0, z10_1⟩ := idx_in t
  funext y
  show V m c main_arg4 (((cfg0.win 5).blk t).view.emb y) = V m c main_arg4 y
  have h : ((cfg0.win 5).blk t).view.emb y = y := by
    funext a; apply Fin.ext
    match a with
    | ⟨0, _⟩ => show win0_5.index t (0 : Fin 2) * 192 + 1 * (y 0).val = (y 0).val; omega
    | ⟨1, _⟩ => show win0_5.index t (1 : Fin 2) * 120 + 1 * (y 1).val = (y 1).val; omega
  rw [h]

/-- Window 6 stages its whole array at every point: its block there is the array `main_arg5` as the region finds it. -/
theorem iblk6_eq (c : Dev nD) (t : Fin cfg0.N) : (iblk m c 6 t : Vec F S1x120 .f32) = V m c main_arg5 := by
  obtain ⟨z1_0, z1_1, z1_2, z2_0, z2_1, z3_0, z3_1, z3_2, z4_0, z4_1, z5_0, z5_1, z6_0, z6_1, z7_0, z7_1, z8_0, z8_1, z9_0, z9_1, z10_0, z10_1⟩ := idx_in t
  funext y
  show V m c main_arg5 (((cfg0.win 6).blk t).view.emb y) = V m c main_arg5 y
  have h : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 120 + 1 * (y 1).val = (y 1).val; omega
  rw [h]

/-- Window 7 stages its whole array at every point: its block there is the array `main_arg6` as the region finds it. -/
theorem iblk7_eq (c : Dev nD) (t : Fin cfg0.N) : (iblk m c 7 t : Vec F S120x60 .bf16) = V m c main_arg6 := by
  obtain ⟨z1_0, z1_1, z1_2, z2_0, z2_1, z3_0, z3_1, z3_2, z4_0, z4_1, z5_0, z5_1, z6_0, z6_1, z7_0, z7_1, z8_0, z8_1, z9_0, z9_1, z10_0, z10_1⟩ := idx_in t
  funext y
  show V m c main_arg6 (((cfg0.win 7).blk t).view.emb y) = V m c main_arg6 y
  have h : ((cfg0.win 7).blk t).view.emb y = y := by
    funext a; apply Fin.ext
    match a with
    | ⟨0, _⟩ => show win0_7.index t (0 : Fin 2) * 120 + 1 * (y 0).val = (y 0).val; omega
    | ⟨1, _⟩ => show win0_7.index t (1 : Fin 2) * 60 + 1 * (y 1).val = (y 1).val; omega
  rw [h]

/-- Window 8 stages its whole array at every point: its block there is the array `main_arg7` as the region finds it. -/
theorem iblk8_eq (c : Dev nD) (t : Fin cfg0.N) : (iblk m c 8 t : Vec F S1x60 .f32) = V m c main_arg7 := by
  obtain ⟨z1_0, z1_1, z1_2, z2_0, z2_1, z3_0, z3_1, z3_2, z4_0, z4_1, z5_0, z5_1, z6_0, z6_1, z7_0, z7_1, z8_0, z8_1, z9_0, z9_1, z10_0, z10_1⟩ := idx_in t
  funext y
  show V m c main_arg7 (((cfg0.win 8).blk t).view.emb y) = V m c main_arg7 y
  have h : ((cfg0.win 8).blk t).view.emb y = y := by
    funext a; apply Fin.ext
    match a with
    | ⟨0, _⟩ => show win0_8.index t (0 : Fin 2) * 1 + 1 * (y 0).val = (y 0).val; omega
    | ⟨1, _⟩ => show win0_8.index t (1 : Fin 2) * 60 + 1 * (y 1).val = (y 1).val; omega
  rw [h]

/-- Window 9 stages its whole array at every point: its block there is the array `main_arg8` as the region finds it. -/
theorem iblk9_eq (c : Dev nD) (t : Fin cfg0.N) : (iblk m c 9 t : Vec F S60x128 .bf16) = V m c main_arg8 := by
  obtain ⟨z1_0, z1_1, z1_2, z2_0, z2_1, z3_0, z3_1, z3_2, z4_0, z4_1, z5_0, z5_1, z6_0, z6_1, z7_0, z7_1, z8_0, z8_1, z9_0, z9_1, z10_0, z10_1⟩ := idx_in t
  funext y
  show V m c main_arg8 (((cfg0.win 9).blk t).view.emb y) = V m c main_arg8 y
  have h : ((cfg0.win 9).blk t).view.emb y = y := by
    funext a; apply Fin.ext
    match a with
    | ⟨0, _⟩ => show win0_9.index t (0 : Fin 2) * 60 + 1 * (y 0).val = (y 0).val; omega
    | ⟨1, _⟩ => show win0_9.index t (1 : Fin 2) * 128 + 1 * (y 1).val = (y 1).val; omega
  rw [h]

/-- Window 10 stages its whole array at every point: its block there is the array `main_arg9` as the region finds it. -/
theorem iblk10_eq (c : Dev nD) (t : Fin cfg0.N) : (iblk m c 10 t : Vec F S1x128 .f32) = V m c main_arg9 := by
  obtain ⟨z1_0, z1_1, z1_2, z2_0, z2_1, z3_0, z3_1, z3_2, z4_0, z4_1, z5_0, z5_1, z6_0, z6_1, z7_0, z7_1, z8_0, z8_1, z9_0, z9_1, z10_0, z10_1⟩ := idx_in t
  funext y
  show V m c main_arg9 (((cfg0.win 10).blk t).view.emb y) = V m c main_arg9 y
  have h : ((cfg0.win 10).blk t).view.emb y = y := by
    funext a; apply Fin.ext
    match a with
    | ⟨0, _⟩ => show win0_10.index t (0 : Fin 2) * 1 + 1 * (y 0).val = (y 0).val; omega
    | ⟨1, _⟩ => show win0_10.index t (1 : Fin 2) * 128 + 1 * (y 1).val = (y 1).val; omega
  rw [h]

/-! ## Window 0: row `r` of the block at point `t` is row `2048 t + r` of the array -/

theorem iblk0_apply (c : Dev nD) (t : Fin cfg0.N) (r : Fin 2048) (p : Fin 784) (R : Fin 8192) (hR : R.val = 2048 * t.val + r.val) :
    (iblk m c 0 t : Vec F S2048x784 .bf16) (ix2 r p) = V m c main_v1 (ix2 R p) := by
  obtain ⟨e0, e1⟩ := idx0 t
  show V m c main_v1 (((cfg0.win 0).blk t).view.emb (ix2 r p)) = V m c main_v1 (ix2 R p)
  have h : ((cfg0.win 0).blk t).view.emb (ix2 r p) = ix2 R p := by
    funext a; apply Fin.ext
    match a with
    | ⟨0, _⟩ => show win0_0.index t (0 : Fin 2) * 2048 + 1 * r.val = R.val; omega
    | ⟨1, _⟩ => show win0_0.index t (1 : Fin 2) * 784 + 1 * p.val = p.val; omega
  rw [h]

/-! ## Window 11: where a block sits in the array, and the blocks cover it -/

/-- Index `y` of the block at point `t` is index `(2048 t + y₀, y₁)` of the array. -/
theorem emb11 (t : Fin cfg0.N) (y : S2048x10.Idx) (R : Fin 8192) (hR : R.val = 2048 * t.val + (y 0).val) :
    (((cfg0.win 11).blk t).view.emb y : S8192x10.Idx) = ix2 R (y 1) := by
  obtain ⟨e0, e1⟩ := idx11 t
  funext a; apply Fin.ext
  match a with
  | ⟨0, _⟩ => show win0_11.index t (0 : Fin 2) * 2048 + 1 * (y 0).val = R.val; omega
  | ⟨1, _⟩ => show win0_11.index t (1 : Fin 2) * 10 + 1 * (y 1).val = (y 1).val; omega

/-- An index of the array is in point `t`'s block iff its row is one of the block's 2048. -/
theorem mem_blk11 (t : Fin cfg0.N) (i : S8192x10.Idx) :
    i ∈ ((cfg0.win 11).blk t).view.set ↔ 2048 * t.val ≤ (i 0).val ∧ (i 0).val < 2048 * t.val + 2048 := by
  obtain ⟨e0, e1⟩ := idx11 t
  have hi1 : (i 1).val < 10 := (i 1).isLt
  have hbox : i ∈ ((cfg0.win 11).blk t).view.set ↔ ∀ a : Fin 2, win0_11.index t a * S2048x10.size a ≤ (i a).val ∧ (i a).val < win0_11.index t a * S2048x10.size a + S2048x10.size a := by
    show i ∈ ((View.whole main_v2).slice (win0_11.rect t)).set ↔ _
    rw [View.set_slice_whole, Rect.mem_set_unit]
    exact Iff.rfl
  rw [hbox]
  constructor
  · intro h
    have b0 : win0_11.index t (0 : Fin 2) * 2048 ≤ (i 0).val ∧ (i 0).val < win0_11.index t (0 : Fin 2) * 2048 + 2048 := h 0
    omega
  · intro h a
    match a with
    | ⟨0, _⟩ => show win0_11.index t (0 : Fin 2) * 2048 ≤ (i 0).val ∧ (i 0).val < win0_11.index t (0 : Fin 2) * 2048 + 2048; omega
    | ⟨1, _⟩ => show win0_11.index t (1 : Fin 2) * 10 ≤ (i 1).val ∧ (i 1).val < win0_11.index t (1 : Fin 2) * 10 + 10; omega

/-- Every index of the array is in the block of the point its row falls in, and that point writes its block back. -/
theorem cover11 (i : S8192x10.Idx) : ∃ t : Fin cfg0.N, (cfg0.win 11).flush t = true ∧ i ∈ ((cfg0.win 11).blk t).view.set := by
  have hi0 : (i 0).val < 8192 := (i 0).isLt
  refine ⟨⟨(i 0).val / 2048, by rw [show cfg0.N = 4 from N_0]; omega⟩, flush0_11 _, ?_⟩
  rw [mem_blk11]
  show 2048 * ((i 0).val / 2048) ≤ (i 0).val ∧ (i 0).val < 2048 * ((i 0).val / 2048) + 2048
  omega

end Cert.KernelIdeal.Hand

end
-- ==== Proof.KIFrame.lean ====
/-
  The fused kernel's run on the extended reals, with what it writes named.

  Between grid points the two scratch buffers carry the concatenated weights. Before the first point they hold
  anything; after it — and so before every later point — each holds its stage's four matrices in their lane groups,
  and whatever it held before in the lanes between the groups. That is the invariant the points hand to one another.
  Given it, every point writes the same function of its inputs into its output block: the network applied to the rows
  of the point's block of images. So the proof data names, for every point, that block; nothing else of the scratch
  buffers' contents is named or needed.
-/
import proofs.«152690_g2000104654252751_pallasbulk_1105_35_alg».proof.Proof.KIOut
import proofs.«152690_g2000104654252751_pallasbulk_1105_35_alg».proof.Proof.KIBlocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The invariant before grid position n: before the first point the region's own (each scratch buffer at anything);
    afterwards each scratch buffer at contents that hold its stage's matrices in their lane groups. -/
def PhiT (c : Dev nD) : ℕ → sProp 𝕄
  | 0 => Pipeline.ΦA spec0 c
  | _ + 1 => iprop(iprop(∃ d0 d1, ⌜Good0 (V m c main_arg0) d0 ∧ Good1 (V m c main_arg2) d1⌝
      ∗ owns (c : Thread nD τ) scM0 fullShare d0 ∗ owns (c : Thread nD τ) scM1 fullShare d1) ∗ (∃ r, prngReg c r))

/-- The proof data: the arrays as the region finds them; after the body each input's buffer at its block and the
    output's at the network's block; the invariant above; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => blkOut (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ t := PhiT m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = blkOut (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

theorem Phi_castSucc (c : Dev nD) (t : Fin cfg0.N) : (dats m 0 c).Φ t.castSucc = PhiT m c t.val := by
  dsimp only [dats]; simp only [Fin.coe_castSucc]

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

set_option maxHeartbeats 4000000 in
/-- The body at any point. At the first point the scratch buffers come at anything and go back filled; at a later
    point they come and go holding the stages' matrices in their lane groups. Either way the output buffer ends at
    the network's block. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl,
    after0, after1, after2, after3, after4, after5, after6, after7, after8, after9, after10, after11,
    show (dats m 0 c).Φ t.succ = PhiT m c (t.val + 1) from rfl, Phi_castSucc]
  have hN : t.val < 4 := lt_of_lt_of_eq t.isLt (show cfg0.N = 4 from N_0)
  by_cases h0 : t.val % 4 = 0
  · have hz : t.val = 0 := by omega
    rw [show PhiT m c t.val = Pipeline.ΦA spec0 c from by rw [hz]; rfl, PhiA_eq]
    unfold PhiT
    iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c (grid0.coords t) _ _ _ _ _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) s0 s1).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    iintro ⟨H0, H1, H2, H3, H4, H5, H6, H7, H8, H9, H10, ⟨%f11, H11⟩, HS0, HS1⟩
    isplitl [HS0 HS1 Hg]
    · isplitl [HS0 HS1]
      · iexists _, _
        isplitr
        swap
        · isplitl [HS0]
          · unfold owns; iexists _; isplitr
            swap; · iexact HS0
            ipureintro; rfl
          · unfold owns; iexists _; isplitr
            swap; · iexact HS1
            ipureintro; rfl
        · ipureintro
          refine ⟨?_, ?_⟩
          · rw [← iblk1_eq m c t]
            exact good0_A c (grid0.coords t) _ _ _ _ _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) s0 s1
          · rw [← iblk3_eq m c t]
            exact good1_A c (grid0.coords t) _ _ _ _ _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) s0 s1
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold owns; iexists _; isplitr
    swap; · iexact H11
    ipureintro
    exact outA_eq c (grid0.coords t) _ _ _ _ _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) s0 s1 _
  · obtain ⟨n, hn⟩ : ∃ n, t.val = n + 1 := ⟨t.val - 1, by omega⟩
    rw [show PhiT m c t.val = PhiT m c (n + 1) from by rw [hn]]
    unfold PhiT
    iintro ⟨⟨⟨%s0, %s1, %hG, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hG0 : Good0 (iblk m c 1 t) s0 := by rw [iblk1_eq m c t]; exact hG.1
    have hG1 : Good1 (iblk m c 3 t) s1 := by rw [iblk3_eq m c t]; exact hG.2
    iapply ((runB c (grid0.coords t) _ _ _ _ _ _ _ _ _ _ _ _ _ _ _ _ _ _ _ _ _ _ _ _ _ _ _ _ (fun h => h0 ((hcond t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) s0 s1).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    iintro ⟨H0, H1, H2, H3, H4, H5, H6, H7, H8, H9, H10, ⟨%f11, H11⟩, HS0, HS1⟩
    isplitl [HS0 HS1 Hg]
    · isplitl [HS0 HS1]
      · iexists s0, s1
        isplitr; · ipureintro; exact hG
        isplitl [HS0]; · iexact HS0
        iexact HS1
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold owns; iexists _; isplitr
    swap; · iexact H11
    ipureintro
    exact outB_eq c (grid0.coords t) _ _ _ _ _ _ _ _ _ _ _ _ _ _ _ _ _ _ _ _ _ _ _ _ _ _ _ _ (fun h => h0 ((hcond t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) s0 s1 hG0 hG1 _

/-- The library's body obligation, at every point. -/
theorem body_obligation (c : Dev nD) : BodyObligation (dats m 0 c) (defs₀ (F := Ideal)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiT m c 0 from rfl]
  exact Idealize.SL.BI.Entails.refl _

/-- After the last point the invariant gives the region's own back: what the scratch buffers hold is forgotten. -/
theorem hout (c : Dev nD) : (dats m 0 c).Φ (Fin.last cfg0.N) ⊢ Pipeline.ΦA spec0 c := by
  have key : ∀ n, PhiT m c (n + 1) ⊢ Pipeline.ΦA spec0 c := fun n => by
    rw [PhiA_eq]
    unfold PhiT
    iintro ⟨⟨%d0, %d1, -, HS0, HS1⟩, Hg⟩
    isplitl [HS0 HS1]
    · isplitl [HS0]
      · iexists _; iexact HS0
      · iexists _; iexact HS1
    · iexact Hg
  have h : (dats m 0 c).Φ (Fin.last cfg0.N) = PhiT m c (3 + 1) := by
    dsimp only [dats]; simp only [Fin.val_last]; rw [show cfg0.N = 3 + 1 from N_0]
  rw [h]
  exact key 3

set_option backward.isDefEq.respectTransparency.types false in
/-- Every weakly fair execution of @main terminates, and every final state has every array of the pipeline at what the
    library computes from the proof data and every other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Hand

end
-- ==== Proof.KIFinal.lean ====
/-
  From the points' blocks to the whole result. Point t writes rows [2048 t, 2048 t + 2048) of the result: its block of
  images is those rows of the flattened images, the ten parameter blocks are the parameter arrays themselves, so the
  block it writes is those rows of the network applied to every flattened image. The four blocks tile the result's
  8192 rows, so after the run the result array is that function of the arguments; the arguments are unchanged.
-/
import proofs.«152690_g2000104654252751_pallasbulk_1105_35_alg».proof.Proof.KIFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The image array the region stages: the images flattened to rows of 784 pixels (the row-major recast, then a change
    of float format, which is the identity on the extended reals). -/
theorem V_main_v1 (c : Dev nD) :
    V m c main_v1 = LeNetSpec.xflat (m ((c.tc : Thread nD τ).loc main_arg10)) shapeCasts_S8192x1x28x28_S8192x784 := by
  show StableHlo.after hostOps0 (fun b => m (c, b)) (Proc.devRef .tc main_v1) = _
  after_results
  rfl

/-- What point t writes back is block t of the network applied to every row of the flattened images. -/
theorem flushed_eq (c : Dev nD) (t : Fin cfg0.N) :
    (dats m 0 c).flushed 11 t = ((cfg0.win 11).blk t).view.read (Elt Ideal) (LeNetSpec.G (V m c main_arg0) (V m c main_arg1) (V m c main_arg2) (V m c main_arg3) (V m c main_arg4) (V m c main_arg5) (V m c main_arg6) (V m c main_arg7) (V m c main_arg8) (V m c main_arg9) (V m c main_v1)) := by
  show (cfg0.win 11).cut (grid0.coords t) ((dats m 0 c).after 11 t) = _
  rw [after11]
  refine funext fun (y : S2048x10.Idx) => ?_
  obtain ⟨r, j, rfl⟩ : ∃ (r : Fin 2048) (j : Fin 10), y = ix2 r j := ⟨y 0, y 1, eq_ix2 y⟩
  have hN : cfg0.N = 4 := N_0
  obtain ⟨R, hR⟩ : ∃ R : Fin 8192, R.val = 2048 * t.val + r.val :=
    ⟨⟨2048 * t.val + r.val, by have := t.isLt; have := r.isLt; omega⟩, rfl⟩
  show blkOut (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = LeNetSpec.G (V m c main_arg0) (V m c main_arg1) (V m c main_arg2) (V m c main_arg3) (V m c main_arg4) (V m c main_arg5) (V m c main_arg6) (V m c main_arg7) (V m c main_arg8) (V m c main_arg9) (V m c main_v1) (((cfg0.win 11).blk t).view.emb (ix2 r j))
  rw [emb11 t (ix2 r j) R hR]
  unfold blkOut LeNetSpec.G
  rw [iblk1_eq m c t, iblk2_eq m c t, iblk3_eq m c t, iblk4_eq m c t, iblk5_eq m c t, iblk6_eq m c t, iblk7_eq m c t, iblk8_eq m c t, iblk9_eq m c t, iblk10_eq m c t]
  exact congrArg (fun x => LeNetSpec.netOf (V m c main_arg0) (V m c main_arg1) (V m c main_arg2) (V m c main_arg3) (V m c main_arg4) (V m c main_arg5) (V m c main_arg6) (V m c main_arg7) (V m c main_arg8) (V m c main_arg9) x (Fin.castLE (by decide) j)) (funext fun p => iblk0_apply m c t r p R hR)

/-- The result array after the run, over the arrays as the region finds them: the four blocks tile it. -/
theorem finalV (c : Dev nD) : (dats m 0 c).arrAt 11 cfg0.N = LeNetSpec.G (V m c main_arg0) (V m c main_arg1) (V m c main_arg2) (V m c main_arg3) (V m c main_arg4) (V m c main_arg5) (V m c main_arg6) (V m c main_arg7) (V m c main_arg8) (V m c main_arg9) (V m c main_v1) :=
  (dats m 0 c).arrAt_eq_of_cover 11 _ (fun t _ => flushed_eq m c t) cover11

/-- The same over the launch memory. -/
theorem final (c : Dev nD) : (dats m 0 c).arrAt 11 cfg0.N = LeNetSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (LeNetSpec.xflat (m ((c.tc : Thread nD τ).loc main_arg10)) shapeCasts_S8192x1x28x28_S8192x784) := by
  rw [finalV m c, V_main_arg0 m c, V_main_arg1 m c, V_main_arg2 m c, V_main_arg3 m c, V_main_arg4 m c, V_main_arg5 m c, V_main_arg6 m c, V_main_arg7 m c, V_main_arg8 m c, V_main_arg9 m c, V_main_v1 m c]

/-- The run with its result named: every weakly fair execution of the program terminates with its result at the
    specification's array of the arguments — the network on every flattened image, the first 10 columns — and every
    argument unchanged. -/
theorem run : θ_run (defs (F := Ideal)) (onTc (τ := τ) (main (F := Ideal))) ⟨m, fun _ => 0, ρ⟩ (fun r => ∀ c : Dev nD,
      r.2.mem ((c.tc : Thread nD τ).loc main_v2) = LeNetSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (LeNetSpec.xflat (m ((c.tc : Thread nD τ).loc main_arg10)) shapeCasts_S8192x1x28x28_S8192x784)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨((h c).1 11).trans (final m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c))),
      ((h c).2 main_arg10 (Pipeline.mem_restRefs_of main_arg10 (by decide) (by decide))).trans (V_main_arg10 m c)⟩)
    (run_main m ρ)

end Cert.KernelIdeal.Hand

end
-- ==== Proof.RefDots.lean ====
/-
  The five matrix products of the network's body are plain [M, K] × [K, N] products: the left operand's second axis
  is contracted with the right operand's first, and there is no batch axis. Each record's four coordinate facts are
  read off the record: the result's row indexes the left operand's rows, its column the right operand's columns, and
  the one contraction coordinate the left operand's columns and the right operand's rows.
-/
import proofs.«152690_g2000104654252751_pallasbulk_1105_35_alg».proof.Proof.Gen.ReferenceIdeal
import proofs.«152690_g2000104654252751_pallasbulk_1105_35_alg».proof.Proof.LibPlainDot

noncomputable section

namespace Cert.ReferenceIdeal.RefValue

open Cert.ReferenceIdeal Cert.ReferenceIdeal.Gen Idealize.ShloMosaic Idealize.ShloMosaic.ValueIdx

/-- The first pooled stage's products: rows of 784 pixels against a [784, 864] matrix. -/
theorem plain_784_864 : PlainDot.IsPlain dot_S128x784_S784x864_S128x864_1_0_0_1_n_n where
  rank := rfl
  size := rfl
  lhs0 := fun _ _ => rfl
  lhs1 := fun i q => DotDims.lhsIdx_val_of_single _ (cl := 1) rfl i q
  rhs0 := fun i q => DotDims.rhsIdx_val_of_single _ (cr := 0) rfl i q
  rhs1 := fun _ _ => rfl

/-- The second pooled stage's products: rows of 864 features against a [864, 192] matrix. -/
theorem plain_864_192 : PlainDot.IsPlain dot_S128x864_S864x192_S128x192_1_0_0_1_n_n where
  rank := rfl
  size := rfl
  lhs0 := fun _ _ => rfl
  lhs1 := fun i q => DotDims.lhsIdx_val_of_single _ (cl := 1) rfl i q
  rhs0 := fun i q => DotDims.rhsIdx_val_of_single _ (cr := 0) rfl i q
  rhs1 := fun _ _ => rfl

/-- The first dense layer's product: rows of 192 features against a [192, 120] matrix. -/
theorem plain_192_120 : PlainDot.IsPlain dot_S128x192_S192x120_S128x120_1_0_0_1_n_n where
  rank := rfl
  size := rfl
  lhs0 := fun _ _ => rfl
  lhs1 := fun i q => DotDims.lhsIdx_val_of_single _ (cl := 1) rfl i q
  rhs0 := fun i q => DotDims.rhsIdx_val_of_single _ (cr := 0) rfl i q
  rhs1 := fun _ _ => rfl

/-- The second dense layer's product: rows of 120 features against a [120, 60] matrix. -/
theorem plain_120_60 : PlainDot.IsPlain dot_S128x120_S120x60_S128x60_1_0_0_1_n_n where
  rank := rfl
  size := rfl
  lhs0 := fun _ _ => rfl
  lhs1 := fun i q => DotDims.lhsIdx_val_of_single _ (cl := 1) rfl i q
  rhs0 := fun i q => DotDims.rhsIdx_val_of_single _ (cr := 0) rfl i q
  rhs1 := fun _ _ => rfl

/-- The last dense layer's product: rows of 60 features against a [60, 128] matrix. -/
theorem plain_60_128 : PlainDot.IsPlain dot_S128x60_S60x128_S128x128_1_0_0_1_n_n where
  rank := rfl
  size := rfl
  lhs0 := fun _ _ => rfl
  lhs1 := fun i q => DotDims.lhsIdx_val_of_single _ (cl := 1) rfl i q
  rhs0 := fun i q => DotDims.rhsIdx_val_of_single _ (cr := 0) rfl i q
  rhs1 := fun _ _ => rfl

end Cert.ReferenceIdeal.RefValue

end
-- ==== Proof.RefPayload.lean ====
/-
  The body's result at one entry, at the extended reals.

  At a grid point the body holds a block of 128 flattened images (128 rows of 784 pixels) and the ten parameter arrays
  whole, and stores one [128, 128] block. Its arithmetic is four pure terms: the first pooled stage (the left-to-right
  maximum of the row's products with the four [784, 864] matrices, plus the bias row, rectified); the maximum of the
  second stage's first two products; the rest of the second stage followed by the two rectified dense layers and the
  last layer's product; and the last bias row added. Read at row r and column j, each term is the corresponding
  expression of the specification: a matrix product into the zero accumulator is the sum over the contracted axis, a
  maximum of vectors is the maximum of the entries, a bias row broadcast down the rows reads its one row, the matrix k
  of a stack of four read as a [1, K, N] rectangle and recast as [K, N] reads the stack at (k, ·, ·), and a change of
  float format is the identity. The order of the maxima and of every sum is the specification's own, so nothing is
  re-associated and no finiteness is needed; the rectifiers' zero stays the uninterpreted float pattern.

  Everything is stated over variables of the literal vector types, with rows and columns as literal `Fin` coordinates.
-/
import proofs.«152690_g2000104654252751_pallasbulk_1105_35_alg».proof.Proof.Gen.ReferenceIdeal.Frame
import proofs.«152690_g2000104654252751_pallasbulk_1105_35_alg».proof.Proof.Spec
import proofs.«152690_g2000104654252751_pallasbulk_1105_35_alg».proof.Proof.RefDots
import Idealize.ShloMosaic.Lib.ValueLayout

noncomputable section

namespace Cert.ReferenceIdeal.RefValue

open Cert.ReferenceIdeal Cert.ReferenceIdeal.Gen Idealize.ShloMosaic Idealize.ShloMosaic.ValueIdx

/-- Slab `k` of a [4, 784, 864] array, loaded as a [1, 784, 864] rectangle and viewed as a [784, 864] matrix, reads
    the array at (k, p, j): the leading unit axis contributes nothing to the row-major position. -/
theorem slab1_apply (x1 : Vec Ideal S4x784x864 .bf16) (k : Fin 4) (off : Fin 3 → Nat) (hoff : off = ![k.val, 0, 0])
    (inb : ∀ a, off a + S1x784x864.size a ≤ S4x784x864.size a) (h : S1x784x864.ShapeCasts S784x864) (p : Fin 784) (j : Fin 864) :
    shapeCast S784x864 (View.ld x1 (Rect.unit (s := S4x784x864) off S1x784x864.size inb)) h (ix2 p j) = x1 (ix3 k p j) := by
  subst hoff
  refine (shapeCast_apply _ h (ix2 p j) (ix3 (0 : Fin 1) p j) ?_).trans ?_
  · rw [Shape.rowMajor_val_three, Shape.rowMajor_val_two]
    show (0 * 784 + p.val) * 864 + j.val = p.val * 864 + j.val
    omega
  · show x1 _ = x1 _
    refine congrArg x1 (funext fun a => Fin.ext ?_)
    match a with
    | ⟨0, _⟩ => show k.val + 1 * 0 = k.val; omega
    | ⟨1, _⟩ => show 0 + 1 * p.val = p.val; omega
    | ⟨2, _⟩ => show 0 + 1 * j.val = j.val; omega

/-- The same for a [4, 864, 192] array. -/
theorem slab2_apply (x3 : Vec Ideal S4x864x192 .bf16) (k : Fin 4) (off : Fin 3 → Nat) (hoff : off = ![k.val, 0, 0])
    (inb : ∀ a, off a + S1x864x192.size a ≤ S4x864x192.size a) (h : S1x864x192.ShapeCasts S864x192) (p : Fin 864) (j : Fin 192) :
    shapeCast S864x192 (View.ld x3 (Rect.unit (s := S4x864x192) off S1x864x192.size inb)) h (ix2 p j) = x3 (ix3 k p j) := by
  subst hoff
  refine (shapeCast_apply _ h (ix2 p j) (ix3 (0 : Fin 1) p j) ?_).trans ?_
  · rw [Shape.rowMajor_val_three, Shape.rowMajor_val_two]
    show (0 * 864 + p.val) * 192 + j.val = p.val * 192 + j.val
    omega
  · show x3 _ = x3 _
    refine congrArg x3 (funext fun a => Fin.ext ?_)
    match a with
    | ⟨0, _⟩ => show k.val + 1 * 0 = k.val; omega
    | ⟨1, _⟩ => show 0 + 1 * p.val = p.val; omega
    | ⟨2, _⟩ => show 0 + 1 * j.val = j.val; omega

/-- The first pooled stage at row r, column j: the left-to-right maximum of the row's four products with the
    slabs, plus the bias row, rectified. A change of float format is the identity. -/
theorem pay2_apply (v0 : Vec Ideal S128x784 .bf16) (v2 v5 v9 v13 : Vec Ideal S1x784x864 .bf16) (v17 : Vec Ideal S1x864 .f32)
    (A : Fin 4 → Fin 784 → Fin 864 → EReal)
    (h2 : ∀ p j, shapeCast S784x864 v2 shapeCasts_S1x784x864_S784x864 (ix2 p j) = A 0 p j)
    (h5 : ∀ p j, shapeCast S784x864 v5 shapeCasts_S1x784x864_S784x864 (ix2 p j) = A 1 p j)
    (h9 : ∀ p j, shapeCast S784x864 v9 shapeCasts_S1x784x864_S784x864 (ix2 p j) = A 2 p j)
    (h13 : ∀ p j, shapeCast S784x864 v13 shapeCasts_S1x784x864_S784x864 (ix2 p j) = A 3 p j)
    (r : Fin 128) (j : Fin 864) :
    k0_pay2 v0 v2 v5 v9 v13 v17 (ix2 r j)
      = LeNetSpec.pooled A (fun j => v17 (ix2 (0 : Fin 1) j)) (fun p => v0 (ix2 r p)) j := by
  unfold k0_pay2 LeNetSpec.pooled
  simp only [truncf_apply, maximumf_apply, addf_apply, broadcast_apply, shapeCast_self,
    PlainDot.matmul_zero_apply _ plain_784_864, broadcastTo_1b_ab_apply, h2, h5, h9, h13]

/-- The second stage's first two products over the first stage's row `y`, their maximum. -/
theorem pay3_apply (v0 : Vec Ideal S128x784 .bf16) (v2 v5 v9 v13 : Vec Ideal S1x784x864 .bf16) (v17 : Vec Ideal S1x864 .f32)
    (v23 v26 : Vec Ideal S1x864x192 .bf16) (B : Fin 4 → Fin 864 → Fin 192 → EReal) (r : Fin 128) (y : Fin 864 → EReal)
    (hy : ∀ p, k0_pay2 v0 v2 v5 v9 v13 v17 (ix2 r p) = y p)
    (h23 : ∀ p j, shapeCast S864x192 v23 shapeCasts_S1x864x192_S864x192 (ix2 p j) = B 0 p j)
    (h26 : ∀ p j, shapeCast S864x192 v26 shapeCasts_S1x864x192_S864x192 (ix2 p j) = B 1 p j)
    (j : Fin 192) :
    k0_pay3 v0 v2 v5 v9 v13 v17 v23 v26 (ix2 r j) = max (∑ p, y p * B 0 p j) (∑ p, y p * B 1 p j) := by
  unfold k0_pay3
  simp only [maximumf_apply, PlainDot.matmul_zero_apply _ plain_864_192, hy, h23, h26]

/-- The rest of the second pooled stage (the last two products joined to the maximum `m01` of the first two, the
    bias, the rectifier), the two rectified dense layers, and the last layer's product. -/
theorem pay4_apply (v22 : FVec Ideal S128x864 .bf16) (v29 : FVec Ideal S128x192 .f32) (v30 v34 : Vec Ideal S1x864x192 .bf16)
    (v38 : Vec Ideal S1x192 .f32) (v44 : Vec Ideal S192x120 .bf16) (v46 : Vec Ideal S1x120 .f32)
    (v52 : Vec Ideal S120x60 .bf16) (v54 : Vec Ideal S1x60 .f32) (v60 : Vec Ideal S60x128 .bf16)
    (B : Fin 4 → Fin 864 → Fin 192 → EReal) (r : Fin 128) (y : Fin 864 → EReal) (m01 : Fin 192 → EReal)
    (hy : ∀ p, v22 (ix2 r p) = y p) (h29 : ∀ s, v29 (ix2 r s) = m01 s)
    (h30 : ∀ p j, shapeCast S864x192 v30 shapeCasts_S1x864x192_S864x192 (ix2 p j) = B 2 p j)
    (h34 : ∀ p j, shapeCast S864x192 v34 shapeCasts_S1x864x192_S864x192 (ix2 p j) = B 3 p j)
    (j : Fin 128) :
    k0_pay4 v22 v29 v30 v34 v38 v44 v46 v52 v54 v60 (ix2 r j)
      = ∑ q, max (LeNetSpec.dense (fun p q => v52 (ix2 p q)) (fun q => v54 (ix2 (0 : Fin 1) q))
          (fun p => max (LeNetSpec.dense (fun s p => v44 (ix2 s p)) (fun p => v46 (ix2 (0 : Fin 1) p))
            (fun s => max (max (max (m01 s) (∑ p, y p * B 2 p s)) (∑ p, y p * B 3 p s) + v38 (ix2 (0 : Fin 1) s)) LeNetSpec.z) p)
              LeNetSpec.z) q) LeNetSpec.z * v60 (ix2 q j) := by
  unfold k0_pay4 LeNetSpec.dense
  simp only [truncf_apply, maximumf_apply, addf_apply, broadcast_apply,
    PlainDot.matmul_zero_apply _ plain_864_192, PlainDot.matmul_zero_apply _ plain_192_120,
    PlainDot.matmul_zero_apply _ plain_120_60, PlainDot.matmul_zero_apply _ plain_60_128,
    broadcastTo_1b_ab_apply, hy, h29, h30, h34]

/-- The last layer's bias row added. -/
theorem pay1_apply (v61 : FVec Ideal S128x128 .f32) (v62 : Vec Ideal S1x128 .f32) (r j : Fin 128) :
    k0_pay1 v61 v62 (ix2 r j) = v61 (ix2 r j) + v62 (ix2 (0 : Fin 1) j) := by
  unfold k0_pay1
  simp only [addf_apply, broadcastTo_1b_ab_apply]

theorem hz2 : (![0, 0] : Fin 2 → Nat) = fun _ => 0 := funext fun a => by fin_cases a <;> rfl

/-- The stored block at row r, column j is the specification's network, its parameters read off the ten parameter
    blocks, applied to row r of the image block. The one store covers the whole output block, the whole-block loads read their blocks,
    and the four slab loads of each stacked matrix read its four matrices. -/
theorem out_apply (x0 : Vec Ideal S128x784 .bf16) (x1 : Vec Ideal S4x784x864 .bf16) (x2 : Vec Ideal S1x864 .f32)
    (x3 : Vec Ideal S4x864x192 .bf16) (x4 : Vec Ideal S1x192 .f32) (x5 : Vec Ideal S192x120 .bf16) (x6 : Vec Ideal S1x120 .f32)
    (x7 : Vec Ideal S120x60 .bf16) (x8 : Vec Ideal S1x60 .f32) (x9 : Vec Ideal S60x128 .bf16) (x10 : Vec Ideal S1x128 .f32)
    (r j : Fin 128) :
    out0_11 x0 x1 x2 x3 x4 x5 x6 x7 x8 x9 x10 (ix2 r j)
      = LeNetSpec.netOf x1 x2 x3 x4 x5 x6 x7 x8 x9 x10 (fun p => x0 (ix2 r p)) j := by
  unfold out0_11
  rw [View.canon_unit_zero hz2]
  simp only [View.ld_unit_zero (S := S128x784) hz2, View.ld_unit_zero (S := S1x864) hz2, View.ld_unit_zero (S := S1x192) hz2,
    View.ld_unit_zero (S := S192x120) hz2, View.ld_unit_zero (S := S1x120) hz2, View.ld_unit_zero (S := S120x60) hz2,
    View.ld_unit_zero (S := S1x60) hz2, View.ld_unit_zero (S := S60x128) hz2, View.ld_unit_zero (S := S1x128) hz2]
  have hp1 : ∀ p : Fin 864, k0_pay2 x0 (View.ld x1 r0_1) (View.ld x1 r0_2) (View.ld x1 r0_3) (View.ld x1 r0_4) x2 (ix2 r p)
      = LeNetSpec.pooled (fun k p j => x1 (ix3 k p j)) (fun j => x2 (ix2 (0 : Fin 1) j)) (fun p => x0 (ix2 r p)) p :=
    fun p => pay2_apply x0 _ _ _ _ x2 (fun k p j => x1 (ix3 k p j))
      (fun p j => slab1_apply x1 0 _ rfl _ _ p j) (fun p j => slab1_apply x1 1 _ rfl _ _ p j)
      (fun p j => slab1_apply x1 2 _ rfl _ _ p j) (fun p j => slab1_apply x1 3 _ rfl _ _ p j) r p
  refine (pay1_apply _ x10 r j).trans ?_
  have h4 := pay4_apply (k0_pay2 x0 (View.ld x1 r0_1) (View.ld x1 r0_2) (View.ld x1 r0_3) (View.ld x1 r0_4) x2)
    (k0_pay3 x0 (View.ld x1 r0_1) (View.ld x1 r0_2) (View.ld x1 r0_3) (View.ld x1 r0_4) x2 (View.ld x3 r0_6) (View.ld x3 r0_7))
    (View.ld x3 r0_8) (View.ld x3 r0_9) x4 x5 x6 x7 x8 x9 (fun k p j => x3 (ix3 k p j)) r _ _ hp1
    (fun s => pay3_apply x0 (View.ld x1 r0_1) (View.ld x1 r0_2) (View.ld x1 r0_3) (View.ld x1 r0_4) x2
      (View.ld x3 r0_6) (View.ld x3 r0_7) (fun k p j => x3 (ix3 k p j)) r _ hp1
      (fun p j => slab2_apply x3 0 _ rfl _ _ p j) (fun p j => slab2_apply x3 1 _ rfl _ _ p j) s)
    (fun p j => slab2_apply x3 2 _ rfl _ _ p j) (fun p j => slab2_apply x3 3 _ rfl _ _ p j) j
  rw [h4]
  rfl

end Cert.ReferenceIdeal.RefValue

end
-- ==== Proof.RefBlocks.lean ====
/-
  From what each grid point writes back to the whole output array of the region.

  The grid has 64 points. Point t stages rows 128·t … 128·t + 127 of the flattened images and, whole, each of the ten
  parameter arrays; it writes back rows 128·t … 128·t + 127 of the [8192, 128] output. The index maps are decided once
  over the 64 points. A block's coordinate on an axis is always (block index) × (block extent) + (coordinate inside the
  block), so row r of the image block at point t is row 128·t + r of the array, and a parameter block — its block
  index zero on every axis — is its array. With the body's result at an entry (the network of the specification on the
  block's row), what point t writes back is therefore block t of ONE function `G128` of the arrays: the network applied
  to every row, all 128 columns of the last layer kept. The blocks tile the output — row i lies in the block of point
  i / 128 — so after the run the array is `G128`.
-/
import proofs.«152690_g2000104654252751_pallasbulk_1105_35_alg».proof.Proof.Gen.ReferenceIdeal.Frame
import proofs.«152690_g2000104654252751_pallasbulk_1105_35_alg».proof.Proof.Spec
import proofs.«152690_g2000104654252751_pallasbulk_1105_35_alg».proof.Proof.RefPayload
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The network applied to every row of the flattened images, all 128 columns of the last layer kept: what the
    output array of the region holds after the run. Row i, column j is the network's column j on row i. -/
def G128 (a1 : FVec Ideal ⟨3, ![4, 784, 864]⟩ .bf16) (b1 : FVec Ideal ⟨2, ![1, 864]⟩ .f32)
    (a2 : FVec Ideal ⟨3, ![4, 864, 192]⟩ .bf16) (b2 : FVec Ideal ⟨2, ![1, 192]⟩ .f32)
    (w3 : FVec Ideal ⟨2, ![192, 120]⟩ .bf16) (b3 : FVec Ideal ⟨2, ![1, 120]⟩ .f32)
    (w4 : FVec Ideal ⟨2, ![120, 60]⟩ .bf16) (b4 : FVec Ideal ⟨2, ![1, 60]⟩ .f32)
    (w5 : FVec Ideal ⟨2, ![60, 128]⟩ .bf16) (b5 : FVec Ideal ⟨2, ![1, 128]⟩ .f32)
    (xf : FVec Ideal ⟨2, ![8192, 784]⟩ .bf16) : FVec Ideal ⟨2, ![8192, 128]⟩ .f32 :=
  fun i => LeNetSpec.netOf a1 b1 a2 b2 w3 b3 w4 b4 w5 b5 (fun p => xf (ix2 (i 0) p)) (i 1)

/-! ## The index maps, decided over the 64 grid points

Point t takes rows 128·t … 128·t + 127 of the flattened images and of the output; every parameter array is one block. -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-! ## The input blocks -/

/-- Row r of the image block at point t is row 128·t + r of the flattened images. -/
theorem iblk0_apply (c : Dev nD) (t : Fin cfg0.N) (r : Fin 128) (p : Fin 784) (R : Fin 8192) (hR : R.val = t.val * 128 + r.val) :
    (iblk m c 0 t : Vec Ideal S128x784 .bf16) (ix2 r p) = (V m c main_v1 : S8192x784.Idx → Elt Ideal .bf16) (ix2 R p) := by
  obtain ⟨e0, e1⟩ := idx0 t
  have h : ((cfg0.win 0).blk t).view.emb (ix2 r p) = ix2 R p := by
    funext a; apply Fin.ext
    match a with
    | ⟨0, _⟩ => show win0_0.index t (0 : Fin 2) * 128 + 1 * r.val = R.val; omega
    | ⟨1, _⟩ => show win0_0.index t (1 : Fin 2) * 784 + 1 * p.val = p.val; omega
  show V m c main_v1 (((cfg0.win 0).blk t).view.emb (ix2 r p)) = V m c main_v1 (ix2 R p)
  rw [h]

/-- Each parameter window's block, at every point, is its whole array. -/
theorem iblk1_eq (c : Dev nD) (t : Fin cfg0.N) : (iblk m c 1 t : Vec Ideal S4x784x864 .bf16) = V m c main_arg0 := by
  obtain ⟨e0, e1, e2⟩ := idx1 t
  funext y
  have h : ((cfg0.win 1).blk t).view.emb y = y := by
    funext a; apply Fin.ext
    match a with
    | ⟨0, _⟩ => show win0_1.index t (0 : Fin 3) * 4 + 1 * (y 0).val = (y 0).val; omega
    | ⟨1, _⟩ => show win0_1.index t (1 : Fin 3) * 784 + 1 * (y 1).val = (y 1).val; omega
    | ⟨2, _⟩ => show win0_1.index t (2 : Fin 3) * 864 + 1 * (y 2).val = (y 2).val; omega
  show V m c main_arg0 (((cfg0.win 1).blk t).view.emb y) = V m c main_arg0 y
  rw [h]
theorem iblk2_eq (c : Dev nD) (t : Fin cfg0.N) : (iblk m c 2 t : Vec Ideal S1x864 .f32) = V m c main_arg1 := by
  obtain ⟨e0, e1⟩ := idx2 t
  funext y
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 864 + 1 * (y 1).val = (y 1).val; omega
  show V m c main_arg1 (((cfg0.win 2).blk t).view.emb y) = V m c main_arg1 y
  rw [h]
theorem iblk3_eq (c : Dev nD) (t : Fin cfg0.N) : (iblk m c 3 t : Vec Ideal S4x864x192 .bf16) = V m c main_arg2 := by
  obtain ⟨e0, e1, e2⟩ := idx3 t
  funext y
  have h : ((cfg0.win 3).blk t).view.emb y = y := by
    funext a; apply Fin.ext
    match a with
    | ⟨0, _⟩ => show win0_3.index t (0 : Fin 3) * 4 + 1 * (y 0).val = (y 0).val; omega
    | ⟨1, _⟩ => show win0_3.index t (1 : Fin 3) * 864 + 1 * (y 1).val = (y 1).val; omega
    | ⟨2, _⟩ => show win0_3.index t (2 : Fin 3) * 192 + 1 * (y 2).val = (y 2).val; omega
  show V m c main_arg2 (((cfg0.win 3).blk t).view.emb y) = V m c main_arg2 y
  rw [h]
theorem iblk4_eq (c : Dev nD) (t : Fin cfg0.N) : (iblk m c 4 t : Vec Ideal S1x192 .f32) = V m c main_arg3 := by
  obtain ⟨e0, e1⟩ := idx4 t
  funext y
  have h : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 192 + 1 * (y 1).val = (y 1).val; omega
  show V m c main_arg3 (((cfg0.win 4).blk t).view.emb y) = V m c main_arg3 y
  rw [h]
theorem iblk5_eq (c : Dev nD) (t : Fin cfg0.N) : (iblk m c 5 t : Vec Ideal S192x120 .bf16) = V m c main_arg4 := by
  obtain ⟨e0, e1⟩ := idx5 t
  funext y
  have h : ((cfg0.win 5).blk t).view.emb y = y := by
    funext a; apply Fin.ext
    match a with
    | ⟨0, _⟩ => show win0_5.index t (0 : Fin 2) * 192 + 1 * (y 0).val = (y 0).val; omega
    | ⟨1, _⟩ => show win0_5.index t (1 : Fin 2) * 120 + 1 * (y 1).val = (y 1).val; omega
  show V m c main_arg4 (((cfg0.win 5).blk t).view.emb y) = V m c main_arg4 y
  rw [h]
theorem iblk6_eq (c : Dev nD) (t : Fin cfg0.N) : (iblk m c 6 t : Vec Ideal S1x120 .f32) = V m c main_arg5 := by
  obtain ⟨e0, e1⟩ := idx6 t
  funext y
  have h : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 120 + 1 * (y 1).val = (y 1).val; omega
  show V m c main_arg5 (((cfg0.win 6).blk t).view.emb y) = V m c main_arg5 y
  rw [h]
theorem iblk7_eq (c : Dev nD) (t : Fin cfg0.N) : (iblk m c 7 t : Vec Ideal S120x60 .bf16) = V m c main_arg6 := by
  obtain ⟨e0, e1⟩ := idx7 t
  funext y
  have h : ((cfg0.win 7).blk t).view.emb y = y := by
    funext a; apply Fin.ext
    match a with
    | ⟨0, _⟩ => show win0_7.index t (0 : Fin 2) * 120 + 1 * (y 0).val = (y 0).val; omega
    | ⟨1, _⟩ => show win0_7.index t (1 : Fin 2) * 60 + 1 * (y 1).val = (y 1).val; omega
  show V m c main_arg6 (((cfg0.win 7).blk t).view.emb y) = V m c main_arg6 y
  rw [h]
theorem iblk8_eq (c : Dev nD) (t : Fin cfg0.N) : (iblk m c 8 t : Vec Ideal S1x60 .f32) = V m c main_arg7 := by
  obtain ⟨e0, e1⟩ := idx8 t
  funext y
  have h : ((cfg0.win 8).blk t).view.emb y = y := by
    funext a; apply Fin.ext
    match a with
    | ⟨0, _⟩ => show win0_8.index t (0 : Fin 2) * 1 + 1 * (y 0).val = (y 0).val; omega
    | ⟨1, _⟩ => show win0_8.index t (1 : Fin 2) * 60 + 1 * (y 1).val = (y 1).val; omega
  show V m c main_arg7 (((cfg0.win 8).blk t).view.emb y) = V m c main_arg7 y
  rw [h]
theorem iblk9_eq (c : Dev nD) (t : Fin cfg0.N) : (iblk m c 9 t : Vec Ideal S60x128 .bf16) = V m c main_arg8 := by
  obtain ⟨e0, e1⟩ := idx9 t
  funext y
  have h : ((cfg0.win 9).blk t).view.emb y = y := by
    funext a; apply Fin.ext
    match a with
    | ⟨0, _⟩ => show win0_9.index t (0 : Fin 2) * 60 + 1 * (y 0).val = (y 0).val; omega
    | ⟨1, _⟩ => show win0_9.index t (1 : Fin 2) * 128 + 1 * (y 1).val = (y 1).val; omega
  show V m c main_arg8 (((cfg0.win 9).blk t).view.emb y) = V m c main_arg8 y
  rw [h]
theorem iblk10_eq (c : Dev nD) (t : Fin cfg0.N) : (iblk m c 10 t : Vec Ideal S1x128 .f32) = V m c main_arg9 := by
  obtain ⟨e0, e1⟩ := idx10 t
  funext y
  have h : ((cfg0.win 10).blk t).view.emb y = y := by
    funext a; apply Fin.ext
    match a with
    | ⟨0, _⟩ => show win0_10.index t (0 : Fin 2) * 1 + 1 * (y 0).val = (y 0).val; omega
    | ⟨1, _⟩ => show win0_10.index t (1 : Fin 2) * 128 + 1 * (y 1).val = (y 1).val; omega
  show V m c main_arg9 (((cfg0.win 10).blk t).view.emb y) = V m c main_arg9 y
  rw [h]

/-! ## What a point writes back, the cover, the final array -/

/-- What point t writes back is block t of `G128` of the arrays as the region finds them: row r of the stored block
    is the network on row 128·t + r of the flattened images. -/
theorem flushed_eq (c : Dev nD) (t : Fin cfg0.N) :
    (dats m 0 c).flushed 11 t = ((cfg0.win 11).blk t).view.read (Elt Ideal) (G128 (V m c main_arg0) (V m c main_arg1) (V m c main_arg2) (V m c main_arg3) (V m c main_arg4) (V m c main_arg5) (V m c main_arg6) (V m c main_arg7) (V m c main_arg8) (V m c main_arg9) (V m c main_v1)) := by
  show (cfg0.win 11).cut (grid0.coords t) ((dats m 0 c).after 11 t) = _
  rw [after0_11]
  obtain ⟨e0, e1⟩ := idx11 t
  refine funext fun (y : S128x128.Idx) => ?_
  obtain ⟨r, j, rfl⟩ : ∃ (r j : Fin 128), y = ix2 r j := ⟨y 0, y 1, eq_ix2 y⟩
  have hN : cfg0.N = 64 := N_0
  obtain ⟨R, hR⟩ : ∃ R : Fin 8192, R.val = t.val * 128 + r.val :=
    ⟨⟨t.val * 128 + r.val, by have := t.isLt; have := r.isLt; omega⟩, rfl⟩
  have hemb : ((cfg0.win 11).blk t).view.emb (ix2 r j) = ix2 R j := by
    funext a; apply Fin.ext
    match a with
    | ⟨0, _⟩ => show win0_11.index t (0 : Fin 2) * 128 + 1 * r.val = R.val; omega
    | ⟨1, _⟩ => show win0_11.index t (1 : Fin 2) * 128 + 1 * j.val = j.val; omega
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = G128 (V m c main_arg0) (V m c main_arg1) (V m c main_arg2) (V m c main_arg3) (V m c main_arg4) (V m c main_arg5) (V m c main_arg6) (V m c main_arg7) (V m c main_arg8) (V m c main_arg9) (V m c main_v1) (((cfg0.win 11).blk t).view.emb (ix2 r j))
  rw [hemb]
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  rw [iblk1_eq m c t, iblk2_eq m c t, iblk3_eq m c t, iblk4_eq m c t, iblk5_eq m c t, iblk6_eq m c t, iblk7_eq m c t, iblk8_eq m c t, iblk9_eq m c t, iblk10_eq m c t]
  exact congrArg (fun x => LeNetSpec.netOf (V m c main_arg0) (V m c main_arg1) (V m c main_arg2) (V m c main_arg3) (V m c main_arg4) (V m c main_arg5) (V m c main_arg6) (V m c main_arg7) (V m c main_arg8) (V m c main_arg9) x j) (funext fun p => iblk0_apply m c t r p R hR)

/-- An index of the output array is in point t's block iff each coordinate is in the block's range on its axis. -/
theorem mem_blk (t : Fin cfg0.N) (i : S8192x128.Idx) :
    i ∈ ((cfg0.win 11).blk t).view.set ↔ ∀ a : Fin 2, win0_11.index t a * S128x128.size a ≤ (i a).val ∧ (i a).val < win0_11.index t a * S128x128.size a + S128x128.size a := by
  show i ∈ ((View.whole main_v2).slice (win0_11.rect t)).set ↔ _
  rw [View.set_slice_whole, Rect.mem_set_unit]
  exact Iff.rfl

/-- Every row of the output array is in some point's block: row i in point i / 128's. -/
theorem cover (i : S8192x128.Idx) : ∃ t : Fin cfg0.N, (cfg0.win 11).flush t = true ∧ i ∈ ((cfg0.win 11).blk t).view.set := by
  have hN : cfg0.N = 64 := N_0
  have hi0 : (i 0).val < 8192 := (i 0).isLt
  have hi1 : (i 1).val < 128 := (i 1).isLt
  obtain ⟨t, ht⟩ : ∃ t : Fin cfg0.N, t.val = (i 0).val / 128 := ⟨⟨(i 0).val / 128, by omega⟩, rfl⟩
  obtain ⟨e0, e1⟩ := idx11 t
  refine ⟨t, flush0_11 t, ?_⟩
  rw [mem_blk]
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 128 ≤ (i 1).val ∧ (i 1).val < win0_11.index t (1 : Fin 2) * 128 + 128; omega

/-- The region's output array after the run, over the arrays as the region finds them: the blocks tile it. -/
theorem finalV (c : Dev nD) : (dats m 0 c).arrAt 11 cfg0.N = G128 (V m c main_arg0) (V m c main_arg1) (V m c main_arg2) (V m c main_arg3) (V m c main_arg4) (V m c main_arg5) (V m c main_arg6) (V m c main_arg7) (V m c main_arg8) (V m c main_arg9) (V m c main_v1) :=
  (dats m 0 c).arrAt_eq_of_cover 11 _ (fun t _ => flushed_eq m c t) cover

end Cert.ReferenceIdeal.RefValue

end
-- ==== Proof.RefRun.lean ====
/-
  The program's run, read: its result is the specification's array of its arguments.

  Before the region the program flattens the images [8192, 1, 28, 28] to rows of 784 pixels and changes their float
  format; on the extended reals the change of format is the identity, so the array the region stages is the row-major
  recast of the images. The ten parameter arrays reach the region as launched. After the run the region's [8192, 128]
  output array is the network applied to every row (all 128 columns of the last layer), and the one line after the region
  keeps the first 10 columns of every row: the specification's `G`. The arguments end unchanged: the region stages
  the parameter arrays without writing them back, and no line writes the images.
-/
import proofs.«152690_g2000104654252751_pallasbulk_1105_35_alg».proof.Proof.Gen.ReferenceIdeal.Frame
import proofs.«152690_g2000104654252751_pallasbulk_1105_35_alg».proof.Proof.Spec
import proofs.«152690_g2000104654252751_pallasbulk_1105_35_alg».proof.Proof.RefBlocks
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The image array the region stages: the images flattened to rows of 784 pixels (the row-major recast, then a
    change of float format, which is the identity on the extended reals). -/
theorem V_main_v1 (c : Dev nD) :
    V m c main_v1 = LeNetSpec.xflat (m ((c.tc : Thread nD τ).loc main_arg10)) shapeCasts_S8192x1x28x28_S8192x784 := by
  show StableHlo.after hostOps0 (fun b => m (c, b)) (Proc.devRef .tc main_v1) = _
  after_results
  rfl

/-- The region's output array after the run, over the launch memory. -/
theorem final (c : Dev nD) : (dats m 0 c).arrAt 11 cfg0.N
    = G128 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (LeNetSpec.xflat (m ((c.tc : Thread nD τ).loc main_arg10)) shapeCasts_S8192x1x28x28_S8192x784) := by
  rw [finalV m c, V_main_arg0 m c, V_main_arg1 m c, V_main_arg2 m c, V_main_arg3 m c, V_main_arg4 m c, V_main_arg5 m c, V_main_arg6 m c, V_main_arg7 m c, V_main_arg8 m c, V_main_arg9 m c, V_main_v1 m c]

/-- The first 10 of the 128 columns of `G128` are the specification's result array. -/
theorem slice_G128 (a1 : FVec Ideal ⟨3, ![4, 784, 864]⟩ .bf16) (b1 : FVec Ideal ⟨2, ![1, 864]⟩ .f32)
    (a2 : FVec Ideal ⟨3, ![4, 864, 192]⟩ .bf16) (b2 : FVec Ideal ⟨2, ![1, 192]⟩ .f32)
    (w3 : FVec Ideal ⟨2, ![192, 120]⟩ .bf16) (b3 : FVec Ideal ⟨2, ![1, 120]⟩ .f32)
    (w4 : FVec Ideal ⟨2, ![120, 60]⟩ .bf16) (b4 : FVec Ideal ⟨2, ![1, 60]⟩ .f32)
    (w5 : FVec Ideal ⟨2, ![60, 128]⟩ .bf16) (b5 : FVec Ideal ⟨2, ![1, 128]⟩ .f32)
    (xf : FVec Ideal ⟨2, ![8192, 784]⟩ .bf16) :
    extractStridedSlice S8192x10 ![0, 0] (G128 a1 b1 a2 b2 w3 b3 w4 b4 w5 b5 xf) slices_S8192x128_S8192x10_0_0
      = LeNetSpec.G a1 b1 a2 b2 w3 b3 w4 b4 w5 b5 xf := by
  funext i
  obtain ⟨r, j, rfl⟩ : ∃ (r : Fin 8192) (j : Fin 10), i = ix2 r j := ⟨i 0, i 1, eq_ix2 i⟩
  refine (extractStridedSlice_apply _ _ _ (ix2 r j) (ix2 r (Fin.castLE (by decide) j)) fun a => ?_).trans rfl
  match a with
  | ⟨0, _⟩ => show r.val = 0 + r.val; omega
  | ⟨1, _⟩ => show j.val = 0 + j.val; omega

/-- The same for any array equal to `G128` of the parameters. -/
theorem slice_of_eq (X : FVec Ideal ⟨2, ![8192, 128]⟩ .f32) (a1 : FVec Ideal ⟨3, ![4, 784, 864]⟩ .bf16) (b1 : FVec Ideal ⟨2, ![1, 864]⟩ .f32)
    (a2 : FVec Ideal ⟨3, ![4, 864, 192]⟩ .bf16) (b2 : FVec Ideal ⟨2, ![1, 192]⟩ .f32)
    (w3 : FVec Ideal ⟨2, ![192, 120]⟩ .bf16) (b3 : FVec Ideal ⟨2, ![1, 120]⟩ .f32)
    (w4 : FVec Ideal ⟨2, ![120, 60]⟩ .bf16) (b4 : FVec Ideal ⟨2, ![1, 60]⟩ .f32)
    (w5 : FVec Ideal ⟨2, ![60, 128]⟩ .bf16) (b5 : FVec Ideal ⟨2, ![1, 128]⟩ .f32)
    (xf : FVec Ideal ⟨2, ![8192, 784]⟩ .bf16)
    (e : X = G128 a1 b1 a2 b2 w3 b3 w4 b4 w5 b5 xf) :
    extractStridedSlice S8192x10 ![0, 0] X slices_S8192x128_S8192x10_0_0 = LeNetSpec.G a1 b1 a2 b2 w3 b3 w4 b4 w5 b5 xf := by
  subst e; exact slice_G128 a1 b1 a2 b2 w3 b3 w4 b4 w5 b5 xf

/-- The host line after the region slices the region's output array, which the lines after the region find at what
    the run left in it: the program's result is the specification's array. -/
theorem tail_v3 (c : Dev nD) : Pipeline.afterTail₀ cfgs (dats m) 0 (V0 m) [hostOps1] c main_v3
    = LeNetSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (LeNetSpec.xflat (m ((c.tc : Thread nD τ).loc main_arg10)) shapeCasts_S8192x1x28x28_S8192x784) := by
  unfold Pipeline.afterTail₀
  show StableHlo.after hostOps1 _ (Proc.devRef .tc main_v3) = _
  after_results
  exact slice_of_eq _ _ _ _ _ _ _ _ _ _ _ _
    ((Pipeline.withArrays_arr spec0 launch0.win.arr_inj c _ _ 11).trans (final m c))

/-- The run with its result named: every weakly fair execution of the program terminates with its result at the specification's
    array of the arguments — the network on every flattened image, the first 10 columns — and every argument unchanged. -/
theorem run : θ_run (defs (F := Ideal)) (onTc (τ := τ) (main (F := Ideal))) ⟨m, fun _ => 0, ρ⟩ (fun r => ∀ c : Dev nD,
      r.2.mem ((c.tc : Thread nD τ).loc main_v3) = LeNetSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (LeNetSpec.xflat (m ((c.tc : Thread nD τ).loc main_arg10)) shapeCasts_S8192x1x28x28_S8192x784)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨((h c).2 main_v3 (Pipeline.mem_restRefs_of main_v3 (by decide) (by decide))).trans (tail_v3 m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c))),
      ((h c).2 main_arg10 (Pipeline.mem_restRefs_of main_arg10 (by decide) (by decide))).trans (W_main_arg10 m (dats m) c)⟩)
    (run_main m ρ)

end Cert.ReferenceIdeal.RefValue

end
-- ==== Proof.lean ====
/-
  A fused LeNet-5 forward pass against the same network with smaller tiles.

  Both programs flatten the images to rows of 784 pixels and apply, row by row, two pooled convolution stages — each the
  maximum over the four offsets of the pooling window of the row's product with that offset's matrix, plus a bias,
  rectified — and three dense layers, keeping the first 10 of the last layer's 128 columns. The reference processes 128
  rows per grid point and multiplies by the four matrices of a stage one after the other, taking the maximum left to
  right. The kernel processes 2048 rows per grid point; at its first point it copies the four matrices of each stage side
  by side into a scratch buffer, in lane groups padded to a multiple of 128 lanes, and from then on multiplies once by the
  concatenated matrix, takes the maximum of the four lane groups pairwise and drops the padding lanes. On the extended
  reals a change of float format is the identity, a matrix product is a sum in any order, the maximum is associative,
  and the padding lanes — whatever the scratch buffer held there — never reach a kept lane. So both programs' results
  are the one function LeNetSpec.G of the arguments, and no finiteness of the inputs is used.

  Each program runs to completion with its arguments unchanged: the reference and the idealized kernel by their runs
  with the result named, the word-level kernel by a run that names nothing of its output. The idealization rewrote no
  operation, so the fourth claim is trivial.
-/
import proofs.«152690_g2000104654252751_pallasbulk_1105_35_alg».proof.Defs
import proofs.«152690_g2000104654252751_pallasbulk_1105_35_alg».proof.Proof.Gen.Kernel
import proofs.«152690_g2000104654252751_pallasbulk_1105_35_alg».proof.Proof.Gen.KernelIdeal
import proofs.«152690_g2000104654252751_pallasbulk_1105_35_alg».proof.Proof.Gen.ReferenceIdeal
import proofs.«152690_g2000104654252751_pallasbulk_1105_35_alg».proof.Proof.Gen.Pre_finite_inputs
import proofs.«152690_g2000104654252751_pallasbulk_1105_35_alg».proof.Proof.KFrame
import proofs.«152690_g2000104654252751_pallasbulk_1105_35_alg».proof.Proof.KIFinal
import proofs.«152690_g2000104654252751_pallasbulk_1105_35_alg».proof.Proof.RefRun

noncomputable section

namespace Cert.Proof

open Idealize.ShloMosaic Idealize.SL.Sem

/-- The word-level kernel terminates, without a fault, with its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the idealized kernel: its run with the result named, the result dropped. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run m ρ)

/-- And the idealized reference, likewise. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- The idealization rewrote nothing. -/
theorem preserves : Cert.preserves_Kernel_KernelIdeal := trivial

/-- On the extended reals the two programs, run from memories that agree on the arguments, end with the same result:
    the network applied to every flattened image, the first 10 columns. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10⟩ := hagree c
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
